-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_v300) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x720x1280 : Shape := ⟨4, ![8, 1, 720, 1280]⟩
abbrev S8x2x720x1280 : Shape := ⟨4, ![8, 2, 720, 1280]⟩
abbrev S_ : Shape := ⟨0, ![]⟩

class Facts : Prop where
  bcast_S_S8x1x720x1280 : S_.BroadcastsInDim S8x1x720x1280 (![] : Fin 0 → Fin S8x1x720x1280.rank)
  reducesTo_S8x1x720x1280_S_d0_1_2_3 : S8x1x720x1280.ReducesTo [0, 1, 2, 3] S_
  h_S_ : 0 < S_.numel
  bcast_S_S8x2x720x1280 : S_.BroadcastsInDim S8x2x720x1280 (![] : Fin 0 → Fin S8x2x720x1280.rank)
  reducesTo_S8x2x720x1280_S_d0_1_2_3 : S8x2x720x1280.ReducesTo [0, 1, 2, 3] S_

variable [Facts]

def fn {F : FTy → Type} [FloatOps F] (main_arg0 : FVec F S8x1x720x1280 .f32) (main_arg1 : FVec F S8x1x720x1280 .f32) (main_arg2 : FVec F S8x2x720x1280 .f32) : IVec S_ 1 :=
  let main_v0 : FVec F S8x1x720x1280 .f32 := Host.absf main_arg0
  let main_cst : FVec F S_ .f32 := constant S_ .f32 0x7F800000#32
  let main_v1 : FVec F S8x1x720x1280 .f32 := broadcastInDim S8x1x720x1280 ![] bcast_S_S8x1x720x1280 main_cst
  let main_v2 : IVec S8x1x720x1280 1 := cmpf .olt main_v0 main_v1
  let main_c : IVec S_ 1 := constantI S_ 1 1#1
  let main_v3 : IVec S_ 1 := (fun x v => Host.reduce IntOp.andi x v reducesTo_S8x1x720x1280_S_d0_1_2_3 h_S_) main_v2 main_c
  let main_v4 : FVec F S8x1x720x1280 .f32 := Host.absf main_arg1
  let main_cst_0 : FVec F S_ .f32 := constant S_ .f32 0x7F800000#32
  let main_v5 : FVec F S8x1x720x1280 .f32 := broadcastInDim S8x1x720x1280 ![] bcast_S_S8x1x720x1280 main_cst_0
  let main_v6 : IVec S8x1x720x1280 1 := cmpf .olt main_v4 main_v5
  let main_c_1 : IVec S_ 1 := constantI S_ 1 1#1
  let main_v7 : IVec S_ 1 := (fun x v => Host.reduce IntOp.andi x v reducesTo_S8x1x720x1280_S_d0_1_2_3 h_S_) main_v6 main_c_1
  let main_v8 : IVec S_ 1 := andi main_v3 main_v7
  let main_v9 : FVec F S8x2x720x1280 .f32 := Host.absf main_arg2
  let main_cst_2 : FVec F S_ .f32 := constant S_ .f32 0x7F800000#32
  let main_v10 : FVec F S8x2x720x1280 .f32 := broadcastInDim S8x2x720x1280 ![] bcast_S_S8x2x720x1280 main_cst_2
  let main_v11 : IVec S8x2x720x1280 1 := cmpf .olt main_v9 main_v10
  let main_c_3 : IVec S_ 1 := constantI S_ 1 1#1
  let main_v12 : IVec S_ 1 := (fun x v => Host.reduce IntOp.andi x v reducesTo_S8x2x720x1280_S_d0_1_2_3 h_S_) main_v11 main_c_3
  let main_v13 : IVec S_ 1 := andi main_v8 main_v12
  main_v13
-- ==== Kernel.lean ====
abbrev S8x1x720x1280 : Shape := ⟨4, ![8, 1, 720, 1280]⟩
abbrev S8x2x720x1280 : Shape := ⟨4, ![8, 2, 720, 1280]⟩
abbrev S8x720x1280 : Shape := ⟨3, ![8, 720, 1280]⟩
abbrev S4x8x720x1280 : Shape := ⟨4, ![4, 8, 720, 1280]⟩
abbrev S1x120x1280 : Shape := ⟨3, ![1, 120, 1280]⟩
abbrev S4x1x120x1280 : Shape := ⟨4, ![4, 1, 120, 1280]⟩
abbrev S120x1280 : Shape := ⟨2, ![120, 1280]⟩
abbrev S1x1x120x1280 : Shape := ⟨4, ![1, 1, 120, 1280]⟩
abbrev S29491200 : Shape := ⟨1, ![29491200]⟩
abbrev S_ : Shape := ⟨0, ![]⟩
abbrev S7372800 : Shape := ⟨1, ![7372800]⟩
abbrev S29491200x1 : Shape := ⟨2, ![29491200, 1]⟩

abbrev nBuf : Space → Nat
  | .hbm => 43
  | .vmem => 14
  | .smem => 0
  | _ => 0

abbrev bufTy : (tb : Table) → Fin (tcTables nBuf tb) → BufTy
  | .hbm, ⟨0, _⟩ => ⟨S8x1x720x1280, .f32⟩
  | .hbm, ⟨1, _⟩ => ⟨S8x1x720x1280, .f32⟩
  | .hbm, ⟨2, _⟩ => ⟨S8x2x720x1280, .f32⟩
  | .hbm, ⟨3, _⟩ => ⟨S8x720x1280, .f32⟩
  | .hbm, ⟨4, _⟩ => ⟨S8x720x1280, .f32⟩
  | .hbm, ⟨5, _⟩ => ⟨S8x1x720x1280, .f32⟩
  | .hbm, ⟨6, _⟩ => ⟨S8x720x1280, .f32⟩
  | .hbm, ⟨7, _⟩ => ⟨S8x1x720x1280, .f32⟩
  | .hbm, ⟨8, _⟩ => ⟨S8x720x1280, .f32⟩
  | .hbm, ⟨9, _⟩ => ⟨S4x8x720x1280, .i32⟩
  | .hbm, ⟨10, _⟩ => ⟨S4x8x720x1280, .f32⟩
  | .hbm, ⟨11, _⟩ => ⟨S4x8x720x1280, .f32⟩
  | .hbm, ⟨12, _⟩ => ⟨S29491200, .i32⟩
  | .hbm, ⟨13, _⟩ => ⟨S29491200, .f32⟩
  | .hbm, ⟨14, _⟩ => ⟨S29491200, .f32⟩
  | .hbm, ⟨15, _⟩ => ⟨S_, .f32⟩
  | .hbm, ⟨16, _⟩ => ⟨S7372800, .f32⟩
  | .hbm, ⟨17, _⟩ => ⟨S_, .i32⟩
  | .hbm, ⟨18, _⟩ => ⟨S29491200, .i32⟩
  | .hbm, ⟨19, _⟩ => ⟨S29491200, .i1⟩
  | .hbm, ⟨20, _⟩ => ⟨S_, .i32⟩
  | .hbm, ⟨21, _⟩ => ⟨S29491200, .i32⟩
  | .hbm, ⟨22, _⟩ => ⟨S29491200, .i32⟩
  | .hbm, ⟨23, _⟩ => ⟨S29491200, .i32⟩
  | .hbm, ⟨24, _⟩ => ⟨S29491200x1, .i32⟩
  | .hbm, ⟨25, _⟩ => ⟨S7372800, .f32⟩
  | .hbm, ⟨26, _⟩ => ⟨S_, .f32⟩
  | .hbm, ⟨27, _⟩ => ⟨S7372800, .f32⟩
  | .hbm, ⟨28, _⟩ => ⟨S_, .i32⟩
  | .hbm, ⟨29, _⟩ => ⟨S29491200, .i32⟩
  | .hbm, ⟨30, _⟩ => ⟨S29491200, .i1⟩
  | .hbm, ⟨31, _⟩ => ⟨S_, .i32⟩
  | .hbm, ⟨32, _⟩ => ⟨S29491200, .i32⟩
  | .hbm, ⟨33, _⟩ => ⟨S29491200, .i32⟩
  | .hbm, ⟨34, _⟩ => ⟨S29491200, .i32⟩
  | .hbm, ⟨35, _⟩ => ⟨S29491200x1, .i32⟩
  | .hbm, ⟨36, _⟩ => ⟨S7372800, .f32⟩
  | .hbm, ⟨37, _⟩ => ⟨S8x1x720x1280, .f32⟩
  | .hbm, ⟨38, _⟩ => ⟨S8x1x720x1280, .f32⟩
  | .hbm, ⟨39, _⟩ => ⟨S_, .f32⟩
  | .hbm, ⟨40, _⟩ => ⟨S8x1x720x1280, .f32⟩
  | .hbm, ⟨41, _⟩ => ⟨S8x1x720x1280, .f32⟩
  | .hbm, ⟨42, _⟩ => ⟨S8x1x720x1280, .f32⟩
  | .local _ .vmem, ⟨0, _⟩ => ⟨S1x120x1280, .f32⟩
  | .local _ .vmem, ⟨1, _⟩ => ⟨S1x120x1280, .f32⟩
  | .local _ .vmem, ⟨2, _⟩ => ⟨S1x120x1280, .f32⟩
  | .local _ .vmem, ⟨3, _⟩ => ⟨S1x120x1280, .f32⟩
  | .local _ .vmem, ⟨4, _⟩ => ⟨S1x120x1280, .f32⟩
  | .local _ .vmem, ⟨5, _⟩ => ⟨S1x120x1280, .f32⟩
  | .local _ .vmem, ⟨6, _⟩ => ⟨S1x120x1280, .f32⟩
  | .local _ .vmem, ⟨7, _⟩ => ⟨S1x120x1280, .f32⟩
  | .local _ .vmem, ⟨8, _⟩ => ⟨S4x1x120x1280, .i32⟩
  | .local _ .vmem, ⟨9, _⟩ => ⟨S4x1x120x1280, .i32⟩
  | .local _ .vmem, ⟨10, _⟩ => ⟨S4x1x120x1280, .f32⟩
  | .local _ .vmem, ⟨11, _⟩ => ⟨S4x1x120x1280, .f32⟩
  | .local _ .vmem, ⟨12, _⟩ => ⟨S4x1x120x1280, .f32⟩
  | .local _ .vmem, ⟨13, _⟩ => ⟨S4x1x120x1280, .f32⟩
  | _, _ => ⟨S8x1x720x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x120x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x120x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x120x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x120x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x120x1280 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x120x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x120x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x1x720x1280_S8x720x1280 : S8x1x720x1280.ShapeCasts S8x720x1280
  slices_S8x2x720x1280_S8x1x720x1280_0_1_0_0 : S8x2x720x1280.Slices ![0, 1, 0, 0] S8x1x720x1280
  slices_S8x2x720x1280_S8x1x720x1280_0_0_0_0 : S8x2x720x1280.Slices ![0, 0, 0, 0] S8x1x720x1280
  inb_S1x120x1280_S1x120x1280_0_0_0 : ∀ a, (![0, 0, 0] : Fin 3 → Nat) a + S1x120x1280.size a ≤ S1x120x1280.size a
  h_S1x120x1280 : 0 < S1x120x1280.numel
  shapeCasts_S1x120x1280_S120x1280 : S1x120x1280.ShapeCasts S120x1280
  iota_S120x1280_d0_w32 : S120x1280.Iotas .tc 32 [0]
  iota_S120x1280_d1_w32 : S120x1280.Iotas .tc 32 [1]
  inb_S4x1x120x1280_S1x1x120x1280_0_0_0_0 : ∀ a, (![0, 0, 0, 0] : Fin 4 → Nat) a + S1x1x120x1280.size a ≤ S4x1x120x1280.size a
  h_S1x1x120x1280 : 0 < S1x1x120x1280.numel
  shapeCasts_S1x1x120x1280_S120x1280 : S1x1x120x1280.ShapeCasts S120x1280
  shapeCasts_S120x1280_S1x1x120x1280 : S120x1280.ShapeCasts S1x1x120x1280
  inb_S4x1x120x1280_S1x1x120x1280_1_0_0_0 : ∀ a, (![1, 0, 0, 0] : Fin 4 → Nat) a + S1x1x120x1280.size a ≤ S4x1x120x1280.size a
  inb_S4x1x120x1280_S1x1x120x1280_2_0_0_0 : ∀ a, (![2, 0, 0, 0] : Fin 4 → Nat) a + S1x1x120x1280.size a ≤ S4x1x120x1280.size a
  inb_S4x1x120x1280_S1x1x120x1280_3_0_0_0 : ∀ a, (![3, 0, 0, 0] : Fin 4 → Nat) a + S1x1x120x1280.size a ≤ S4x1x120x1280.size a
  shapeCasts_S4x8x720x1280_S29491200 : S4x8x720x1280.ShapeCasts S29491200
  bcast_S_S7372800 : S_.BroadcastsInDim S7372800 (![] : Fin 0 → Fin S7372800.rank)
  bcast_S_S29491200 : S_.BroadcastsInDim S29491200 (![] : Fin 0 → Fin S29491200.rank)
  bcast_S29491200_S29491200x1_0 : S29491200.BroadcastsInDim S29491200x1 (![0] : Fin 1 → Fin S29491200x1.rank)
  shapeCasts_S7372800_S8x1x720x1280 : S7372800.ShapeCasts S8x1x720x1280
  bcast_S_S8x1x720x1280 : S_.BroadcastsInDim S8x1x720x1280 (![] : Fin 0 → Fin S8x1x720x1280.rank)
  scatter_S7372800_S29491200x1_S29491200_n_0_0_1_wf : ScatterDims.WF S7372800 S29491200x1 S29491200 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x120x1280.size a ≤ S8x720x1280.size a
  hwx0_0 : ∀ i : grid0.Coords, EltTy.bits .f32 = 32 ∨ (Rect.block (s := S8x720x1280) S1x120x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x120x1280.size a ≤ S8x720x1280.size a
  hwx0_1 : ∀ i : grid0.Coords, EltTy.bits .f32 = 32 ∨ (Rect.block (s := S8x720x1280) S1x120x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x120x1280.size a ≤ S8x720x1280.size a
  hwx0_2 : ∀ i : grid0.Coords, EltTy.bits .f32 = 32 ∨ (Rect.block (s := S8x720x1280) S1x120x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x120x1280.size a ≤ S8x720x1280.size a
  hwx0_3 : ∀ i : grid0.Coords, EltTy.bits .f32 = 32 ∨ (Rect.block (s := S8x720x1280) S1x120x1280.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x120x1280.size a ≤ S4x8x720x1280.size a
  hwx0_4 : ∀ i : grid0.Coords, EltTy.bits .i32 = 32 ∨ (Rect.block (s := S4x8x720x1280) S4x1x120x1280.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x120x1280.size a ≤ S4x8x720x1280.size a
  hwx0_5 : ∀ i : grid0.Coords, EltTy.bits .f32 = 32 ∨ (Rect.block (s := S4x8x720x1280) S4x1x120x1280.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x120x1280.size a ≤ S4x8x720x1280.size a
  hwx0_6 : ∀ i : grid0.Coords, EltTy.bits .f32 = 32 ∨ (Rect.block (s := S4x8x720x1280) S4x1x120x1280.size (cc0_transform_6 i) (hinb0_6 i)).WholeWords (EltTy.packing .f32)

variable [Facts₀]

def scatter_S7372800_S29491200x1_S29491200_n_0_0_1 : ScatterDims S7372800 S29491200x1 S29491200 where
  updateWindowDims := []
  insertedWindowDims := [0]
  scatterDimsToOperandDims := [0]
  indexVectorDim := 1
  wf := scatter_S7372800_S29491200x1_S29491200_n_0_0_1_wf

abbrev win0_0 : Pipeline.Window sig grid0 :=
  Pipeline.Window.ofSpec (Memref.whole main_v0) S1x120x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x120x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x120x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x120x1280.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S4x1x120x1280.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S4x1x120x1280.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S4x1x120x1280.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1x720x1280 : Shape := ⟨4, ![8, 1, 720, 1280]⟩
abbrev S8x2x720x1280 : Shape := ⟨4, ![8, 2, 720, 1280]⟩
abbrev S_ : Shape := ⟨0, ![]⟩
abbrev S720 : Shape := ⟨1, ![720]⟩
abbrev S720x1 : Shape := ⟨2, ![720, 1]⟩
abbrev S1280 : Shape := ⟨1, ![1280]⟩
abbrev S1x1280 : Shape := ⟨2, ![1, 1280]⟩
abbrev S1x1x720x1 : Shape := ⟨4, ![1, 1, 720, 1]⟩
abbrev S1x1x1x1280 : Shape := ⟨4, ![1, 1, 1, 1280]⟩
abbrev S8 : Shape := ⟨1, ![8]⟩
abbrev S8x1x1x1 : Shape := ⟨4, ![8, 1, 1, 1]⟩
abbrev S1 : Shape := ⟨1, ![1]⟩
abbrev S1x1x1x1 : Shape := ⟨4, ![1, 1, 1, 1]⟩
abbrev S7372800 : Shape := ⟨1, ![7372800]⟩
abbrev S7372800x1 : Shape := ⟨2, ![7372800, 1]⟩

abbrev nBuf : Space → Nat
  | .hbm => 442
  | .vmem => 0
  | .smem => 0
  | _ => 0

abbrev hbmTy0_0 (i : Nat) : BufTy := match i % 128 with
  | 0 => ⟨S8x1x720x1280, .f32⟩
  | 1 => ⟨S8x1x720x1280, .f32⟩
  | 2 => ⟨S8x2x720x1280, .f32⟩
  | 3 => ⟨S8x1x720x1280, .f32⟩
  | 4 => ⟨S8x1x720x1280, .f32⟩
  | 5 => ⟨S8x1x720x1280, .f32⟩
  | 6 => ⟨S_, .f32⟩
  | 7 => ⟨S8x1x720x1280, .f32⟩
  | 8 => ⟨S8x1x720x1280, .f32⟩
  | 9 => ⟨S8x1x720x1280, .f32⟩
  | 10 => ⟨S_, .f32⟩
  | 11 => ⟨S8x1x720x1280, .f32⟩
  | 12 => ⟨S8x1x720x1280, .f32⟩
  | 13 => ⟨S8x1x720x1280, .f32⟩
  | 14 => ⟨S8x1x720x1280, .f32⟩
  | 15 => ⟨S8x1x720x1280, .f32⟩
  | 16 => ⟨S8x1x720x1280, .f32⟩
  | 17 => ⟨S8x1x720x1280, .f32⟩
  | 18 => ⟨S8x1x720x1280, .f32⟩
  | 19 => ⟨S8x1x720x1280, .f32⟩
  | 20 => ⟨S8x1x720x1280, .f32⟩
  | 21 => ⟨S8x1x720x1280, .f32⟩
  | 22 => ⟨S8x1x720x1280, .f32⟩
  | 23 => ⟨S8x1x720x1280, .f32⟩
  | 24 => ⟨S8x1x720x1280, .f32⟩
  | 25 => ⟨S8x1x720x1280, .f32⟩
  | 26 => ⟨S8x1x720x1280, .f32⟩
  | 27 => ⟨S8x1x720x1280, .f32⟩
  | 28 => ⟨S8x1x720x1280, .f32⟩
  | 29 => ⟨S8x1x720x1280, .f32⟩
  | 30 => ⟨S8x1x720x1280, .f32⟩
  | 31 => ⟨S8x1x720x1280, .f32⟩
  | 32 => ⟨S8x1x720x1280, .f32⟩
  | 33 => ⟨S8x1x720x1280, .f32⟩
  | 34 => ⟨S8x1x720x1280, .f32⟩
  | 35 => ⟨S8x1x720x1280, .f32⟩
  | 36 => ⟨S8x1x720x1280, .f32⟩
  | 37 => ⟨S8x1x720x1280, .f32⟩
  | 38 => ⟨S8x1x720x1280, .f32⟩
  | 39 => ⟨S8x1x720x1280, .f32⟩
  | 40 => ⟨S720, .i32⟩
  | 41 => ⟨S720x1, .i32⟩
  | 42 => ⟨S1280, .i32⟩
  | 43 => ⟨S1x1280, .i32⟩
  | 44 => ⟨S8x1x720x1280, .i32⟩
  | 45 => ⟨S1x1x720x1, .i32⟩
  | 46 => ⟨S8x1x720x1280, .i32⟩
  | 47 => ⟨S8x1x720x1280, .i32⟩
  | 48 => ⟨S8x1x720x1280, .i32⟩
  | 49 => ⟨S1x1x1x1280, .i32⟩
  | 50 => ⟨S8x1x720x1280, .i32⟩
  | 51 => ⟨S8x1x720x1280, .i32⟩
  | 52 => ⟨S_, .i32⟩
  | 53 => ⟨S8x1x720x1280, .i32⟩
  | 54 => ⟨S8x1x720x1280, .i1⟩
  | 55 => ⟨S_, .i32⟩
  | 56 => ⟨S8x1x720x1280, .i32⟩
  | 57 => ⟨S8x1x720x1280, .i1⟩
  | 58 => ⟨S8x1x720x1280, .i1⟩
  | 59 => ⟨S_, .i32⟩
  | 60 => ⟨S8x1x720x1280, .i32⟩
  | 61 => ⟨S8x1x720x1280, .i1⟩
  | 62 => ⟨S8x1x720x1280, .i1⟩
  | 63 => ⟨S_, .i32⟩
  | 64 => ⟨S8x1x720x1280, .i32⟩
  | 65 => ⟨S8x1x720x1280, .i1⟩
  | 66 => ⟨S8x1x720x1280, .i1⟩
  | 67 => ⟨S8, .i32⟩
  | 68 => ⟨S8x1x1x1, .i32⟩
  | 69 => ⟨S1, .i32⟩
  | 70 => ⟨S1x1x1x1, .i32⟩
  | 71 => ⟨S_, .i32⟩
  | 72 => ⟨S8x1x1x1, .i32⟩
  | 73 => ⟨S8x1x1x1, .i32⟩
  | 74 => ⟨S8x1x1x1, .i32⟩
  | 75 => ⟨S8x1x1x1, .i32⟩
  | 76 => ⟨S_, .i32⟩
  | 77 => ⟨S8x1x1x1, .i32⟩
  | 78 => ⟨S8x1x1x1, .i32⟩
  | 79 => ⟨S_, .i32⟩
  | 80 => ⟨S_, .i32⟩
  | 81 => ⟨S_, .i32⟩
  | 82 => ⟨S8x1x720x1280, .i32⟩
  | 83 => ⟨S8x1x720x1280, .i32⟩
  | 84 => ⟨S_, .i32⟩
  | 85 => ⟨S8x1x720x1280, .i32⟩
  | 86 => ⟨S8x1x720x1280, .i32⟩
  | 87 => ⟨S8x1x720x1280, .i32⟩
  | 88 => ⟨S8x1x720x1280, .i32⟩
  | 89 => ⟨S_, .i32⟩
  | 90 => ⟨S8x1x720x1280, .i32⟩
  | 91 => ⟨S8x1x720x1280, .i32⟩
  | 92 => ⟨S_, .i32⟩
  | 93 => ⟨S_, .i32⟩
  | 94 => ⟨S_, .i32⟩
  | 95 => ⟨S8x1x720x1280, .i32⟩
  | 96 => ⟨S8x1x720x1280, .i32⟩
  | 97 => ⟨S_, .i32⟩
  | 98 => ⟨S8x1x720x1280, .i32⟩
  | 99 => ⟨S8x1x720x1280, .i32⟩
  | 100 => ⟨S8x1x720x1280, .i32⟩
  | 101 => ⟨S8x1x720x1280, .f32⟩
  | 102 => ⟨S8x1x720x1280, .f32⟩
  | 103 => ⟨S_, .f32⟩
  | 104 => ⟨S_, .f32⟩
  | 105 => ⟨S8x1x720x1280, .f32⟩
  | 106 => ⟨S8x1x720x1280, .f32⟩
  | 107 => ⟨S7372800, .f32⟩
  | 108 => ⟨S_, .f32⟩
  | 109 => ⟨S_, .f32⟩
  | 110 => ⟨S8x1x720x1280, .f32⟩
  | 111 => ⟨S8x1x720x1280, .f32⟩
  | 112 => ⟨S7372800, .f32⟩
  | 113 => ⟨S7372800, .i32⟩
  | 114 => ⟨S_, .f32⟩
  | 115 => ⟨S7372800, .f32⟩
  | 116 => ⟨S_, .i32⟩
  | 117 => ⟨S7372800, .i32⟩
  | 118 => ⟨S7372800, .i1⟩
  | 119 => ⟨S_, .i32⟩
  | 120 => ⟨S7372800, .i32⟩
  | 121 => ⟨S7372800, .i32⟩
  | 122 => ⟨S7372800, .i32⟩
  | 123 => ⟨S7372800x1, .i32⟩
  | 124 => ⟨S7372800, .f32⟩
  | 125 => ⟨S_, .f32⟩
  | 126 => ⟨S7372800, .f32⟩
  | 127 => ⟨S_, .i32⟩
  | _ => ⟨S8x1x720x1280, .f32⟩

abbrev hbmTy0_1 (i : Nat) : BufTy := match i % 128 with
  | 0 => ⟨S7372800, .i32⟩
  | 1 => ⟨S7372800, .i1⟩
  | 2 => ⟨S_, .i32⟩
  | 3 => ⟨S7372800, .i32⟩
  | 4 => ⟨S7372800, .i32⟩
  | 5 => ⟨S7372800, .i32⟩
  | 6 => ⟨S7372800x1, .i32⟩
  | 7 => ⟨S7372800, .f32⟩
  | 8 => ⟨S8x1x720x1280, .f32⟩
  | 9 => ⟨S8x1x720x1280, .f32⟩
  | 10 => ⟨S720, .i32⟩
  | 11 => ⟨S720x1, .i32⟩
  | 12 => ⟨S1280, .i32⟩
  | 13 => ⟨S1x1280, .i32⟩
  | 14 => ⟨S8x1x720x1280, .i32⟩
  | 15 => ⟨S1x1x720x1, .i32⟩
  | 16 => ⟨S8x1x720x1280, .i32⟩
  | 17 => ⟨S8x1x720x1280, .i32⟩
  | 18 => ⟨S8x1x720x1280, .i32⟩
  | 19 => ⟨S1x1x1x1280, .i32⟩
  | 20 => ⟨S8x1x720x1280, .i32⟩
  | 21 => ⟨S8x1x720x1280, .i32⟩
  | 22 => ⟨S_, .i32⟩
  | 23 => ⟨S8x1x720x1280, .i32⟩
  | 24 => ⟨S8x1x720x1280, .i1⟩
  | 25 => ⟨S_, .i32⟩
  | 26 => ⟨S8x1x720x1280, .i32⟩
  | 27 => ⟨S8x1x720x1280, .i1⟩
  | 28 => ⟨S8x1x720x1280, .i1⟩
  | 29 => ⟨S_, .i32⟩
  | 30 => ⟨S8x1x720x1280, .i32⟩
  | 31 => ⟨S8x1x720x1280, .i1⟩
  | 32 => ⟨S8x1x720x1280, .i1⟩
  | 33 => ⟨S_, .i32⟩
  | 34 => ⟨S8x1x720x1280, .i32⟩
  | 35 => ⟨S8x1x720x1280, .i1⟩
  | 36 => ⟨S8x1x720x1280, .i1⟩
  | 37 => ⟨S8, .i32⟩
  | 38 => ⟨S8x1x1x1, .i32⟩
  | 39 => ⟨S1, .i32⟩
  | 40 => ⟨S1x1x1x1, .i32⟩
  | 41 => ⟨S_, .i32⟩
  | 42 => ⟨S8x1x1x1, .i32⟩
  | 43 => ⟨S8x1x1x1, .i32⟩
  | 44 => ⟨S8x1x1x1, .i32⟩
  | 45 => ⟨S8x1x1x1, .i32⟩
  | 46 => ⟨S_, .i32⟩
  | 47 => ⟨S8x1x1x1, .i32⟩
  | 48 => ⟨S8x1x1x1, .i32⟩
  | 49 => ⟨S_, .i32⟩
  | 50 => ⟨S_, .i32⟩
  | 51 => ⟨S_, .i32⟩
  | 52 => ⟨S8x1x720x1280, .i32⟩
  | 53 => ⟨S8x1x720x1280, .i32⟩
  | 54 => ⟨S_, .i32⟩
  | 55 => ⟨S8x1x720x1280, .i32⟩
  | 56 => ⟨S8x1x720x1280, .i32⟩
  | 57 => ⟨S8x1x720x1280, .i32⟩
  | 58 => ⟨S8x1x720x1280, .i32⟩
  | 59 => ⟨S_, .i32⟩
  | 60 => ⟨S8x1x720x1280, .i32⟩
  | 61 => ⟨S8x1x720x1280, .i32⟩
  | 62 => ⟨S_, .i32⟩
  | 63 => ⟨S_, .i32⟩
  | 64 => ⟨S_, .i32⟩
  | 65 => ⟨S8x1x720x1280, .i32⟩
  | 66 => ⟨S8x1x720x1280, .i32⟩
  | 67 => ⟨S_, .i32⟩
  | 68 => ⟨S8x1x720x1280, .i32⟩
  | 69 => ⟨S8x1x720x1280, .i32⟩
  | 70 => ⟨S8x1x720x1280, .i32⟩
  | 71 => ⟨S8x1x720x1280, .f32⟩
  | 72 => ⟨S8x1x720x1280, .f32⟩
  | 73 => ⟨S_, .f32⟩
  | 74 => ⟨S_, .f32⟩
  | 75 => ⟨S8x1x720x1280, .f32⟩
  | 76 => ⟨S8x1x720x1280, .f32⟩
  | 77 => ⟨S7372800, .f32⟩
  | 78 => ⟨S_, .f32⟩
  | 79 => ⟨S_, .f32⟩
  | 80 => ⟨S8x1x720x1280, .f32⟩
  | 81 => ⟨S8x1x720x1280, .f32⟩
  | 82 => ⟨S7372800, .f32⟩
  | 83 => ⟨S7372800, .i32⟩
  | 84 => ⟨S_, .f32⟩
  | 85 => ⟨S7372800, .f32⟩
  | 86 => ⟨S_, .i32⟩
  | 87 => ⟨S7372800, .i32⟩
  | 88 => ⟨S7372800, .i1⟩
  | 89 => ⟨S_, .i32⟩
  | 90 => ⟨S7372800, .i32⟩
  | 91 => ⟨S7372800, .i32⟩
  | 92 => ⟨S7372800, .i32⟩
  | 93 => ⟨S7372800x1, .i32⟩
  | 94 => ⟨S7372800, .f32⟩
  | 95 => ⟨S_, .f32⟩
  | 96 => ⟨S7372800, .f32⟩
  | 97 => ⟨S_, .i32⟩
  | 98 => ⟨S7372800, .i32⟩
  | 99 => ⟨S7372800, .i1⟩
  | 100 => ⟨S_, .i32⟩
  | 101 => ⟨S7372800, .i32⟩
  | 102 => ⟨S7372800, .i32⟩
  | 103 => ⟨S7372800, .i32⟩
  | 104 => ⟨S7372800x1, .i32⟩
  | 105 => ⟨S7372800, .f32⟩
  | 106 => ⟨S8x1x720x1280, .f32⟩
  | 107 => ⟨S8x1x720x1280, .f32⟩
  | 108 => ⟨S720, .i32⟩
  | 109 => ⟨S720x1, .i32⟩
  | 110 => ⟨S1280, .i32⟩
  | 111 => ⟨S1x1280, .i32⟩
  | 112 => ⟨S8x1x720x1280, .i32⟩
  | 113 => ⟨S1x1x720x1, .i32⟩
  | 114 => ⟨S8x1x720x1280, .i32⟩
  | 115 => ⟨S8x1x720x1280, .i32⟩
  | 116 => ⟨S8x1x720x1280, .i32⟩
  | 117 => ⟨S1x1x1x1280, .i32⟩
  | 118 => ⟨S8x1x720x1280, .i32⟩
  | 119 => ⟨S8x1x720x1280, .i32⟩
  | 120 => ⟨S_, .i32⟩
  | 121 => ⟨S8x1x720x1280, .i32⟩
  | 122 => ⟨S8x1x720x1280, .i1⟩
  | 123 => ⟨S_, .i32⟩
  | 124 => ⟨S8x1x720x1280, .i32⟩
  | 125 => ⟨S8x1x720x1280, .i1⟩
  | 126 => ⟨S8x1x720x1280, .i1⟩
  | 127 => ⟨S_, .i32⟩
  | _ => ⟨S8x1x720x1280, .f32⟩

abbrev hbmTy0_2 (i : Nat) : BufTy := match i % 128 with
  | 0 => ⟨S8x1x720x1280, .i32⟩
  | 1 => ⟨S8x1x720x1280, .i1⟩
  | 2 => ⟨S8x1x720x1280, .i1⟩
  | 3 => ⟨S_, .i32⟩
  | 4 => ⟨S8x1x720x1280, .i32⟩
  | 5 => ⟨S8x1x720x1280, .i1⟩
  | 6 => ⟨S8x1x720x1280, .i1⟩
  | 7 => ⟨S8, .i32⟩
  | 8 => ⟨S8x1x1x1, .i32⟩
  | 9 => ⟨S1, .i32⟩
  | 10 => ⟨S1x1x1x1, .i32⟩
  | 11 => ⟨S_, .i32⟩
  | 12 => ⟨S8x1x1x1, .i32⟩
  | 13 => ⟨S8x1x1x1, .i32⟩
  | 14 => ⟨S8x1x1x1, .i32⟩
  | 15 => ⟨S8x1x1x1, .i32⟩
  | 16 => ⟨S_, .i32⟩
  | 17 => ⟨S8x1x1x1, .i32⟩
  | 18 => ⟨S8x1x1x1, .i32⟩
  | 19 => ⟨S_, .i32⟩
  | 20 => ⟨S_, .i32⟩
  | 21 => ⟨S_, .i32⟩
  | 22 => ⟨S8x1x720x1280, .i32⟩
  | 23 => ⟨S8x1x720x1280, .i32⟩
  | 24 => ⟨S_, .i32⟩
  | 25 => ⟨S8x1x720x1280, .i32⟩
  | 26 => ⟨S8x1x720x1280, .i32⟩
  | 27 => ⟨S8x1x720x1280, .i32⟩
  | 28 => ⟨S8x1x720x1280, .i32⟩
  | 29 => ⟨S_, .i32⟩
  | 30 => ⟨S8x1x720x1280, .i32⟩
  | 31 => ⟨S8x1x720x1280, .i32⟩
  | 32 => ⟨S_, .i32⟩
  | 33 => ⟨S_, .i32⟩
  | 34 => ⟨S_, .i32⟩
  | 35 => ⟨S8x1x720x1280, .i32⟩
  | 36 => ⟨S8x1x720x1280, .i32⟩
  | 37 => ⟨S_, .i32⟩
  | 38 => ⟨S8x1x720x1280, .i32⟩
  | 39 => ⟨S8x1x720x1280, .i32⟩
  | 40 => ⟨S8x1x720x1280, .i32⟩
  | 41 => ⟨S8x1x720x1280, .f32⟩
  | 42 => ⟨S8x1x720x1280, .f32⟩
  | 43 => ⟨S_, .f32⟩
  | 44 => ⟨S_, .f32⟩
  | 45 => ⟨S8x1x720x1280, .f32⟩
  | 46 => ⟨S8x1x720x1280, .f32⟩
  | 47 => ⟨S7372800, .f32⟩
  | 48 => ⟨S_, .f32⟩
  | 49 => ⟨S_, .f32⟩
  | 50 => ⟨S8x1x720x1280, .f32⟩
  | 51 => ⟨S8x1x720x1280, .f32⟩
  | 52 => ⟨S7372800, .f32⟩
  | 53 => ⟨S7372800, .i32⟩
  | 54 => ⟨S_, .f32⟩
  | 55 => ⟨S7372800, .f32⟩
  | 56 => ⟨S_, .i32⟩
  | 57 => ⟨S7372800, .i32⟩
  | 58 => ⟨S7372800, .i1⟩
  | 59 => ⟨S_, .i32⟩
  | 60 => ⟨S7372800, .i32⟩
  | 61 => ⟨S7372800, .i32⟩
  | 62 => ⟨S7372800, .i32⟩
  | 63 => ⟨S7372800x1, .i32⟩
  | 64 => ⟨S7372800, .f32⟩
  | 65 => ⟨S_, .f32⟩
  | 66 => ⟨S7372800, .f32⟩
  | 67 => ⟨S_, .i32⟩
  | 68 => ⟨S7372800, .i32⟩
  | 69 => ⟨S7372800, .i1⟩
  | 70 => ⟨S_, .i32⟩
  | 71 => ⟨S7372800, .i32⟩
  | 72 => ⟨S7372800, .i32⟩
  | 73 => ⟨S7372800, .i32⟩
  | 74 => ⟨S7372800x1, .i32⟩
  | 75 => ⟨S7372800, .f32⟩
  | 76 => ⟨S8x1x720x1280, .f32⟩
  | 77 => ⟨S8x1x720x1280, .f32⟩
  | 78 => ⟨S720, .i32⟩
  | 79 => ⟨S720x1, .i32⟩
  | 80 => ⟨S1280, .i32⟩
  | 81 => ⟨S1x1280, .i32⟩
  | 82 => ⟨S8x1x720x1280, .i32⟩
  | 83 => ⟨S1x1x720x1, .i32⟩
  | 84 => ⟨S8x1x720x1280, .i32⟩
  | 85 => ⟨S8x1x720x1280, .i32⟩
  | 86 => ⟨S8x1x720x1280, .i32⟩
  | 87 => ⟨S1x1x1x1280, .i32⟩
  | 88 => ⟨S8x1x720x1280, .i32⟩
  | 89 => ⟨S8x1x720x1280, .i32⟩
  | 90 => ⟨S_, .i32⟩
  | 91 => ⟨S8x1x720x1280, .i32⟩
  | 92 => ⟨S8x1x720x1280, .i1⟩
  | 93 => ⟨S_, .i32⟩
  | 94 => ⟨S8x1x720x1280, .i32⟩
  | 95 => ⟨S8x1x720x1280, .i1⟩
  | 96 => ⟨S8x1x720x1280, .i1⟩
  | 97 => ⟨S_, .i32⟩
  | 98 => ⟨S8x1x720x1280, .i32⟩
  | 99 => ⟨S8x1x720x1280, .i1⟩
  | 100 => ⟨S8x1x720x1280, .i1⟩
  | 101 => ⟨S_, .i32⟩
  | 102 => ⟨S8x1x720x1280, .i32⟩
  | 103 => ⟨S8x1x720x1280, .i1⟩
  | 104 => ⟨S8x1x720x1280, .i1⟩
  | 105 => ⟨S8, .i32⟩
  | 106 => ⟨S8x1x1x1, .i32⟩
  | 107 => ⟨S1, .i32⟩
  | 108 => ⟨S1x1x1x1, .i32⟩
  | 109 => ⟨S_, .i32⟩
  | 110 => ⟨S8x1x1x1, .i32⟩
  | 111 => ⟨S8x1x1x1, .i32⟩
  | 112 => ⟨S8x1x1x1, .i32⟩
  | 113 => ⟨S8x1x1x1, .i32⟩
  | 114 => ⟨S_, .i32⟩
  | 115 => ⟨S8x1x1x1, .i32⟩
  | 116 => ⟨S8x1x1x1, .i32⟩
  | 117 => ⟨S_, .i32⟩
  | 118 => ⟨S_, .i32⟩
  | 119 => ⟨S_, .i32⟩
  | 120 => ⟨S8x1x720x1280, .i32⟩
  | 121 => ⟨S8x1x720x1280, .i32⟩
  | 122 => ⟨S_, .i32⟩
  | 123 => ⟨S8x1x720x1280, .i32⟩
  | 124 => ⟨S8x1x720x1280, .i32⟩
  | 125 => ⟨S8x1x720x1280, .i32⟩
  | 126 => ⟨S8x1x720x1280, .i32⟩
  | 127 => ⟨S_, .i32⟩
  | _ => ⟨S8x1x720x1280, .f32⟩

abbrev hbmTy0_3 (i : Nat) : BufTy := match i % 128 with
  | 0 => ⟨S8x1x720x1280, .i32⟩
  | 1 => ⟨S8x1x720x1280, .i32⟩
  | 2 => ⟨S_, .i32⟩
  | 3 => ⟨S_, .i32⟩
  | 4 => ⟨S_, .i32⟩
  | 5 => ⟨S8x1x720x1280, .i32⟩
  | 6 => ⟨S8x1x720x1280, .i32⟩
  | 7 => ⟨S_, .i32⟩
  | 8 => ⟨S8x1x720x1280, .i32⟩
  | 9 => ⟨S8x1x720x1280, .i32⟩
  | 10 => ⟨S8x1x720x1280, .i32⟩
  | 11 => ⟨S8x1x720x1280, .f32⟩
  | 12 => ⟨S8x1x720x1280, .f32⟩
  | 13 => ⟨S_, .f32⟩
  | 14 => ⟨S_, .f32⟩
  | 15 => ⟨S8x1x720x1280, .f32⟩
  | 16 => ⟨S8x1x720x1280, .f32⟩
  | 17 => ⟨S7372800, .f32⟩
  | 18 => ⟨S_, .f32⟩
  | 19 => ⟨S_, .f32⟩
  | 20 => ⟨S8x1x720x1280, .f32⟩
  | 21 => ⟨S8x1x720x1280, .f32⟩
  | 22 => ⟨S7372800, .f32⟩
  | 23 => ⟨S7372800, .i32⟩
  | 24 => ⟨S_, .f32⟩
  | 25 => ⟨S7372800, .f32⟩
  | 26 => ⟨S_, .i32⟩
  | 27 => ⟨S7372800, .i32⟩
  | 28 => ⟨S7372800, .i1⟩
  | 29 => ⟨S_, .i32⟩
  | 30 => ⟨S7372800, .i32⟩
  | 31 => ⟨S7372800, .i32⟩
  | 32 => ⟨S7372800, .i32⟩
  | 33 => ⟨S7372800x1, .i32⟩
  | 34 => ⟨S7372800, .f32⟩
  | 35 => ⟨S_, .f32⟩
  | 36 => ⟨S7372800, .f32⟩
  | 37 => ⟨S_, .i32⟩
  | 38 => ⟨S7372800, .i32⟩
  | 39 => ⟨S7372800, .i1⟩
  | 40 => ⟨S_, .i32⟩
  | 41 => ⟨S7372800, .i32⟩
  | 42 => ⟨S7372800, .i32⟩
  | 43 => ⟨S7372800, .i32⟩
  | 44 => ⟨S7372800x1, .i32⟩
  | 45 => ⟨S7372800, .f32⟩
  | 46 => ⟨S8x1x720x1280, .f32⟩
  | 47 => ⟨S8x1x720x1280, .f32⟩
  | 48 => ⟨S8x1x720x1280, .f32⟩
  | 49 => ⟨S8x1x720x1280, .f32⟩
  | 50 => ⟨S8x1x720x1280, .f32⟩
  | 51 => ⟨S8x1x720x1280, .f32⟩
  | 52 => ⟨S8x1x720x1280, .f32⟩
  | 53 => ⟨S8x1x720x1280, .f32⟩
  | 54 => ⟨S_, .f32⟩
  | 55 => ⟨S8x1x720x1280, .f32⟩
  | 56 => ⟨S8x1x720x1280, .f32⟩
  | 57 => ⟨S8x1x720x1280, .f32⟩
  | _ => ⟨S8x1x720x1280, .f32⟩

abbrev hbmTy (i : Nat) : BufTy := match i / 128 with
  | 0 => hbmTy0_0 i
  | 1 => hbmTy0_1 i
  | 2 => hbmTy0_2 i
  | 3 => hbmTy0_3 i
  | _ => ⟨S8x1x720x1280, .f32⟩

abbrev bufTy : (tb : Table) → Fin (tcTables nBuf tb) → BufTy
  | .hbm, ⟨i, _⟩ => hbmTy i
  | _, _ => ⟨S8x1x720x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_c : Ref sig .tc := ⟨.hbm, 52, rfl⟩
abbrev main_v47 : Ref sig .tc := ⟨.hbm, 53, rfl⟩
abbrev main_v48 : Ref sig .tc := ⟨.hbm, 54, rfl⟩
abbrev main_c_1 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_c_2 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_3 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_c_4 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_c_5 : Ref sig .tc := ⟨.hbm, 76, rfl⟩
abbrev main_v66 : Ref sig .tc := ⟨.hbm, 77, rfl⟩
abbrev main_v67 : Ref sig .tc := ⟨.hbm, 78, rfl⟩
abbrev main_c_6 : Ref sig .tc := ⟨.hbm, 79, rfl⟩
abbrev main_c_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_8 : Ref sig .tc := ⟨.hbm, 89, rfl⟩
abbrev main_v71 : Ref sig .tc := ⟨.hbm, 90, rfl⟩
abbrev main_v72 : Ref sig .tc := ⟨.hbm, 91, rfl⟩
abbrev main_c_9 : Ref sig .tc := ⟨.hbm, 92, rfl⟩
abbrev main_c_10 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_call2_v0 : Ref sig .tc := ⟨.hbm, 104, rfl⟩
abbrev main_call2_v1 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_call3_v0 : Ref sig .tc := ⟨.hbm, 109, rfl⟩
abbrev main_call3_v1 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_c_14 : Ref sig .tc := ⟨.hbm, 116, rfl⟩
abbrev main_v83 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_c_17 : Ref sig .tc := ⟨.hbm, 127, rfl⟩
abbrev main_v91 : Ref sig .tc := ⟨.hbm, 128, rfl⟩
abbrev main_v92 : Ref sig .tc := ⟨.hbm, 129, rfl⟩
abbrev main_c_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_19 : Ref sig .tc := ⟨.hbm, 150, rfl⟩
abbrev main_v112 : Ref sig .tc := ⟨.hbm, 151, rfl⟩
abbrev main_v113 : Ref sig .tc := ⟨.hbm, 152, rfl⟩
abbrev main_c_20 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_21 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_22 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_23 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_c_24 : Ref sig .tc := ⟨.hbm, 174, rfl⟩
abbrev main_v131 : Ref sig .tc := ⟨.hbm, 175, rfl⟩
abbrev main_v132 : Ref sig .tc := ⟨.hbm, 176, rfl⟩
abbrev main_c_25 : Ref sig .tc := ⟨.hbm, 177, rfl⟩
abbrev main_c_26 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_c_27 : Ref sig .tc := ⟨.hbm, 187, rfl⟩
abbrev main_v136 : Ref sig .tc := ⟨.hbm, 188, rfl⟩
abbrev main_v137 : Ref sig .tc := ⟨.hbm, 189, rfl⟩
abbrev main_c_28 : Ref sig .tc := ⟨.hbm, 190, rfl⟩
abbrev main_c_29 : Ref sig .tc := ⟨.hbm, 191, rfl⟩
abbrev main_call5_v0 : Ref sig .tc := ⟨.hbm, 192, rfl⟩
abbrev main_call5_v1 : Ref sig .tc := ⟨.hbm, 193, rfl⟩
abbrev main_call5_v2 : Ref sig .tc := ⟨.hbm, 194, rfl⟩
abbrev main_call5_v3 : Ref sig .tc := ⟨.hbm, 195, rfl⟩
abbrev main_call5_v4 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_30 : Ref sig .tc := ⟨.hbm, 201, rfl⟩
abbrev main_call6_v0 : Ref sig .tc := ⟨.hbm, 202, rfl⟩
abbrev main_call6_v1 : Ref sig .tc := ⟨.hbm, 203, rfl⟩
abbrev main_v142 : Ref sig .tc := ⟨.hbm, 204, rfl⟩
abbrev main_v143 : Ref sig .tc := ⟨.hbm, 205, rfl⟩
abbrev main_cst_31 : Ref sig .tc := ⟨.hbm, 206, rfl⟩
abbrev main_call7_v0 : Ref sig .tc := ⟨.hbm, 207, rfl⟩
abbrev main_call7_v1 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_32 : Ref sig .tc := ⟨.hbm, 212, rfl⟩
abbrev main_v147 : Ref sig .tc := ⟨.hbm, 213, rfl⟩
abbrev main_c_33 : Ref sig .tc := ⟨.hbm, 214, rfl⟩
abbrev main_v148 : Ref sig .tc := ⟨.hbm, 215, rfl⟩
abbrev main_v149 : Ref sig .tc := ⟨.hbm, 216, rfl⟩
abbrev main_c_34 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_35 : Ref sig .tc := ⟨.hbm, 223, rfl⟩
abbrev main_v155 : Ref sig .tc := ⟨.hbm, 224, rfl⟩
abbrev main_c_36 : Ref sig .tc := ⟨.hbm, 225, rfl⟩
abbrev main_v156 : Ref sig .tc := ⟨.hbm, 226, rfl⟩
abbrev main_v157 : Ref sig .tc := ⟨.hbm, 227, rfl⟩
abbrev main_c_37 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_c_38 : Ref sig .tc := ⟨.hbm, 248, rfl⟩
abbrev main_v177 : Ref sig .tc := ⟨.hbm, 249, rfl⟩
abbrev main_v178 : Ref sig .tc := ⟨.hbm, 250, rfl⟩
abbrev main_c_39 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_c_40 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_c_41 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_c_42 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_c_43 : Ref sig .tc := ⟨.hbm, 272, rfl⟩
abbrev main_v196 : Ref sig .tc := ⟨.hbm, 273, rfl⟩
abbrev main_v197 : Ref sig .tc := ⟨.hbm, 274, rfl⟩
abbrev main_c_44 : Ref sig .tc := ⟨.hbm, 275, rfl⟩
abbrev main_c_45 : Ref sig .tc := ⟨.hbm, 276, rfl⟩
abbrev main_call8_v0 : Ref sig .tc := ⟨.hbm, 277, rfl⟩
abbrev main_call8_v1 : Ref sig .tc := ⟨.hbm, 278, rfl⟩
abbrev main_call8_v2 : Ref sig .tc := ⟨.hbm, 279, rfl⟩
abbrev main_call8_v3 : Ref sig .tc := ⟨.hbm, 280, rfl⟩
abbrev main_call8_v4 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_c_46 : Ref sig .tc := ⟨.hbm, 285, rfl⟩
abbrev main_v201 : Ref sig .tc := ⟨.hbm, 286, rfl⟩
abbrev main_v202 : Ref sig .tc := ⟨.hbm, 287, rfl⟩
abbrev main_c_47 : Ref sig .tc := ⟨.hbm, 288, rfl⟩
abbrev main_c_48 : Ref sig .tc := ⟨.hbm, 289, rfl⟩
abbrev main_call9_v0 : Ref sig .tc := ⟨.hbm, 290, rfl⟩
abbrev main_call9_v1 : Ref sig .tc := ⟨.hbm, 291, rfl⟩
abbrev main_call9_v2 : Ref sig .tc := ⟨.hbm, 292, rfl⟩
abbrev main_call9_v3 : Ref sig .tc := ⟨.hbm, 293, rfl⟩
abbrev main_call9_v4 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_cst_49 : Ref sig .tc := ⟨.hbm, 299, rfl⟩
abbrev main_call10_v0 : Ref sig .tc := ⟨.hbm, 300, rfl⟩
abbrev main_call10_v1 : Ref sig .tc := ⟨.hbm, 301, rfl⟩
abbrev main_v207 : Ref sig .tc := ⟨.hbm, 302, rfl⟩
abbrev main_v208 : Ref sig .tc := ⟨.hbm, 303, rfl⟩
abbrev main_cst_50 : Ref sig .tc := ⟨.hbm, 304, rfl⟩
abbrev main_call11_v0 : Ref sig .tc := ⟨.hbm, 305, rfl⟩
abbrev main_call11_v1 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_cst_51 : Ref sig .tc := ⟨.hbm, 310, rfl⟩
abbrev main_v212 : Ref sig .tc := ⟨.hbm, 311, rfl⟩
abbrev main_c_52 : Ref sig .tc := ⟨.hbm, 312, rfl⟩
abbrev main_v213 : Ref sig .tc := ⟨.hbm, 313, rfl⟩
abbrev main_v214 : Ref sig .tc := ⟨.hbm, 314, rfl⟩
abbrev main_c_53 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_cst_54 : Ref sig .tc := ⟨.hbm, 321, rfl⟩
abbrev main_v220 : Ref sig .tc := ⟨.hbm, 322, rfl⟩
abbrev main_c_55 : Ref sig .tc := ⟨.hbm, 323, rfl⟩
abbrev main_v221 : Ref sig .tc := ⟨.hbm, 324, rfl⟩
abbrev main_v222 : Ref sig .tc := ⟨.hbm, 325, rfl⟩
abbrev main_c_56 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_c_57 : Ref sig .tc := ⟨.hbm, 346, rfl⟩
abbrev main_v242 : Ref sig .tc := ⟨.hbm, 347, rfl⟩
abbrev main_v243 : Ref sig .tc := ⟨.hbm, 348, rfl⟩
abbrev main_c_58 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_c_59 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_c_60 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_v256 : Ref sig .tc := ⟨.hbm, 364, rfl⟩
abbrev main_c_61 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_c_62 : Ref sig .tc := ⟨.hbm, 370, rfl⟩
abbrev main_v261 : Ref sig .tc := ⟨.hbm, 371, rfl⟩
abbrev main_v262 : Ref sig .tc := ⟨.hbm, 372, rfl⟩
abbrev main_c_63 : Ref sig .tc := ⟨.hbm, 373, rfl⟩
abbrev main_c_64 : Ref sig .tc := ⟨.hbm, 374, rfl⟩
abbrev main_call12_v0 : Ref sig .tc := ⟨.hbm, 375, rfl⟩
abbrev main_call12_v1 : Ref sig .tc := ⟨.hbm, 376, rfl⟩
abbrev main_call12_v2 : Ref sig .tc := ⟨.hbm, 377, rfl⟩
abbrev main_call12_v3 : Ref sig .tc := ⟨.hbm, 378, rfl⟩
abbrev main_call12_v4 : Ref sig .tc := ⟨.hbm, 379, rfl⟩
abbrev main_v263 : Ref sig .tc := ⟨.hbm, 380, rfl⟩
abbrev main_v264 : Ref sig .tc := ⟨.hbm, 381, rfl⟩
abbrev main_v265 : Ref sig .tc := ⟨.hbm, 382, rfl⟩
abbrev main_c_65 : Ref sig .tc := ⟨.hbm, 383, rfl⟩
abbrev main_v266 : Ref sig .tc := ⟨.hbm, 384, rfl⟩
abbrev main_v267 : Ref sig .tc := ⟨.hbm, 385, rfl⟩
abbrev main_c_66 : Ref sig .tc := ⟨.hbm, 386, rfl⟩
abbrev main_c_67 : Ref sig .tc := ⟨.hbm, 387, rfl⟩
abbrev main_call13_v0 : Ref sig .tc := ⟨.hbm, 388, rfl⟩
abbrev main_call13_v1 : Ref sig .tc := ⟨.hbm, 389, rfl⟩
abbrev main_call13_v2 : Ref sig .tc := ⟨.hbm, 390, rfl⟩
abbrev main_call13_v3 : Ref sig .tc := ⟨.hbm, 391, rfl⟩
abbrev main_call13_v4 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_cst_68 : Ref sig .tc := ⟨.hbm, 397, rfl⟩
abbrev main_call14_v0 : Ref sig .tc := ⟨.hbm, 398, rfl⟩
abbrev main_call14_v1 : Ref sig .tc := ⟨.hbm, 399, rfl⟩
abbrev main_v272 : Ref sig .tc := ⟨.hbm, 400, rfl⟩
abbrev main_v273 : Ref sig .tc := ⟨.hbm, 401, rfl⟩
abbrev main_cst_69 : Ref sig .tc := ⟨.hbm, 402, rfl⟩
abbrev main_call15_v0 : Ref sig .tc := ⟨.hbm, 403, rfl⟩
abbrev main_call15_v1 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_cst_70 : Ref sig .tc := ⟨.hbm, 408, rfl⟩
abbrev main_v277 : Ref sig .tc := ⟨.hbm, 409, rfl⟩
abbrev main_c_71 : Ref sig .tc := ⟨.hbm, 410, rfl⟩
abbrev main_v278 : Ref sig .tc := ⟨.hbm, 411, rfl⟩
abbrev main_v279 : Ref sig .tc := ⟨.hbm, 412, rfl⟩
abbrev main_c_72 : Ref sig .tc := ⟨.hbm, 413, rfl⟩
abbrev main_v280 : Ref sig .tc := ⟨.hbm, 414, rfl⟩
abbrev main_v281 : Ref sig .tc := ⟨.hbm, 415, rfl⟩
abbrev main_v282 : Ref sig .tc := ⟨.hbm, 416, rfl⟩
abbrev main_v283 : Ref sig .tc := ⟨.hbm, 417, rfl⟩
abbrev main_v284 : Ref sig .tc := ⟨.hbm, 418, rfl⟩
abbrev main_cst_73 : Ref sig .tc := ⟨.hbm, 419, rfl⟩
abbrev main_v285 : Ref sig .tc := ⟨.hbm, 420, rfl⟩
abbrev main_c_74 : Ref sig .tc := ⟨.hbm, 421, rfl⟩
abbrev main_v286 : Ref sig .tc := ⟨.hbm, 422, rfl⟩
abbrev main_v287 : Ref sig .tc := ⟨.hbm, 423, rfl⟩
abbrev main_c_75 : Ref sig .tc := ⟨.hbm, 424, rfl⟩
abbrev main_v288 : Ref sig .tc := ⟨.hbm, 425, rfl⟩
abbrev main_v289 : Ref sig .tc := ⟨.hbm, 426, rfl⟩
abbrev main_v290 : Ref sig .tc := ⟨.hbm, 427, rfl⟩
abbrev main_v291 : Ref sig .tc := ⟨.hbm, 428, rfl⟩
abbrev main_v292 : Ref sig .tc := ⟨.hbm, 429, rfl⟩
abbrev main_v293 : Ref sig .tc := ⟨.hbm, 430, rfl⟩
abbrev main_v294 : Ref sig .tc := ⟨.hbm, 431, rfl⟩
abbrev main_v295 : Ref sig .tc := ⟨.hbm, 432, rfl⟩
abbrev main_v296 : Ref sig .tc := ⟨.hbm, 433, rfl⟩
abbrev main_v297 : Ref sig .tc := ⟨.hbm, 434, rfl⟩
abbrev main_v298 : Ref sig .tc := ⟨.hbm, 435, rfl⟩
abbrev main_v299 : Ref sig .tc := ⟨.hbm, 436, rfl⟩
abbrev main_v300 : Ref sig .tc := ⟨.hbm, 437, rfl⟩
abbrev main_cst_76 : Ref sig .tc := ⟨.hbm, 438, rfl⟩
abbrev main_v301 : Ref sig .tc := ⟨.hbm, 439, rfl⟩
abbrev main_v302 : Ref sig .tc := ⟨.hbm, 440, rfl⟩
abbrev main_v303 : Ref sig .tc := ⟨.hbm, 441, rfl⟩

abbrev nD : Nat := 1
abbrev τ : Topo := Topo.v7x

variable {F : FTy → Type} [FloatOps F]

class Facts₀ : Prop where
  slices_S8x2x720x1280_S8x1x720x1280_0_0_0_0 : S8x2x720x1280.Slices ![0, 0, 0, 0] S8x1x720x1280
  slices_S8x2x720x1280_S8x1x720x1280_0_1_0_0 : S8x2x720x1280.Slices ![0, 1, 0, 0] S8x1x720x1280
  bcast_S_S8x1x720x1280 : S_.BroadcastsInDim S8x1x720x1280 (![] : Fin 0 → Fin S8x1x720x1280.rank)
  bcast_S720_S720x1_0 : S720.BroadcastsInDim S720x1 (![0] : Fin 1 → Fin S720x1.rank)
  bcast_S1280_S1x1280_1 : S1280.BroadcastsInDim S1x1280 (![1] : Fin 1 → Fin S1x1280.rank)
  bcast_S720x1_S1x1x720x1_2_3 : S720x1.BroadcastsInDim S1x1x720x1 (![2, 3] : Fin 2 → Fin S1x1x720x1.rank)
  bcast_S1x1x720x1_S8x1x720x1280_0_1_2_3 : S1x1x720x1.BroadcastsInDim S8x1x720x1280 (![0, 1, 2, 3] : Fin 4 → Fin S8x1x720x1280.rank)
  bcast_S1x1280_S1x1x1x1280_2_3 : S1x1280.BroadcastsInDim S1x1x1x1280 (![2, 3] : Fin 2 → Fin S1x1x1x1280.rank)
  bcast_S1x1x1x1280_S8x1x720x1280_0_1_2_3 : S1x1x1x1280.BroadcastsInDim S8x1x720x1280 (![0, 1, 2, 3] : Fin 4 → Fin S8x1x720x1280.rank)
  bcast_S8_S8x1x1x1_0 : S8.BroadcastsInDim S8x1x1x1 (![0] : Fin 1 → Fin S8x1x1x1.rank)
  bcast_S1_S1x1x1x1_1 : S1.BroadcastsInDim S1x1x1x1 (![1] : Fin 1 → Fin S1x1x1x1.rank)
  bcast_S_S8x1x1x1 : S_.BroadcastsInDim S8x1x1x1 (![] : Fin 0 → Fin S8x1x1x1.rank)
  bcast_S1x1x1x1_S8x1x1x1_0_1_2_3 : S1x1x1x1.BroadcastsInDim S8x1x1x1 (![0, 1, 2, 3] : Fin 4 → Fin S8x1x1x1.rank)
  bcast_S8x1x1x1_S8x1x720x1280_0_1_2_3 : S8x1x1x1.BroadcastsInDim S8x1x720x1280 (![0, 1, 2, 3] : Fin 4 → Fin S8x1x720x1280.rank)
  shapeCasts_S8x1x720x1280_S7372800 : S8x1x720x1280.ShapeCasts S7372800
  bcast_S_S7372800 : S_.BroadcastsInDim S7372800 (![] : Fin 0 → Fin S7372800.rank)
  bcast_S7372800_S7372800x1_0 : S7372800.BroadcastsInDim S7372800x1 (![0] : Fin 1 → Fin S7372800x1.rank)
  shapeCasts_S7372800_S8x1x720x1280 : S7372800.ShapeCasts S8x1x720x1280
  scatter_S7372800_S7372800x1_S7372800_n_0_0_1_wf : ScatterDims.WF S7372800 S7372800x1 S7372800 [] [0] [0] 1

variable [Facts₀]

def scatter_S7372800_S7372800x1_S7372800_n_0_0_1 : ScatterDims S7372800 S7372800x1 S7372800 where
  updateWindowDims := []
  insertedWindowDims := [0]
  scatterDimsToOperandDims := [0]
  indexVectorDim := 1
  wf := scatter_S7372800_S7372800x1_S7372800_n_0_0_1_wf

class Facts : Prop extends Facts₀ where

variable [Facts]
-- ==== Proof.Splat.lean ====
/-
  Forward warping by Gaussian splatting, at one pixel.

  A source pixel with sample position `(x, y)` (a row shift and a column shift read from the flow) has four integer
  neighbours: `⌊x⌋` or `⌊x⌋ + 1` along the rows, `⌊y⌋` or `⌊y⌋ + 1` along the columns. Neighbour `(xc, yc)` gets
  the unnormalised weight `exp (-((x - xc)² + (y - yc)²))`, divided by the sum of the four. The pixel at row `R`,
  column `C` of image `n` sends, to the cell `(R + xc, C + yc)` of the same image, the mass `b · w` of its count
  `b` and the value `a · (b · w)` of its intensity `a` — when that cell lies inside the `720 × 1280` image; a pixel
  whose cell falls outside sends zero (to the nearest cell of the border, whose position is immaterial). Cells are
  addressed by their flat position `(n · 720 + row) · 1280 + col`.

  Everything is stated on the extended reals and on 32-bit words, with the very operations both programs use, so that
  either program's arithmetic at a pixel IS one of these terms.
-/
import Idealize.ShloMosaic.PureOps.Ideal
import Idealize.ShloMosaic.Lib.ValueIdx

noncomputable section

namespace Splat

open Idealize.ShloMosaic

/-- The float word of `1.0`, read on the extended reals. -/
abbrev lit1 : EReal := Ideal.ofBits .f32 0x3F800000#32
/-- The float word of `0.0`, read on the extended reals. -/
abbrev lit0 : EReal := Ideal.ofBits .f32 0x00000000#32

/-- The lower integer neighbour of a sample position. -/
def lo (x : EReal) : EReal := Ideal.liftRound Int.floor x
/-- The upper one. -/
def hi (x : EReal) : EReal := lo x + lit1
/-- The squared distance of a position to a neighbour. -/
def sq (x c : EReal) : EReal := (x - c) * (x - c)
/-- The unnormalised Gaussian weight of a neighbour at squared distances `dx`, `dy`. -/
def gauss (dx dy : EReal) : EReal := Ideal.exp (-(dx + dy))
/-- The sum of the four neighbours' weights. -/
def total (x y : EReal) : EReal :=
  gauss (sq x (lo x)) (sq y (lo y)) + gauss (sq x (lo x)) (sq y (hi y)) + gauss (sq x (hi x)) (sq y (lo y))
    + gauss (sq x (hi x)) (sq y (hi y))
/-- The normalised weight of neighbour `(xc, yc)`. -/
def weight (x y xc yc : EReal) : EReal := Ideal.div (gauss (sq x xc) (sq y yc)) (total x y)

/-- The row neighbour of corner `l` (corners in the order (lo, lo), (lo, hi), (hi, lo), (hi, hi)). -/
def cx : Fin 4 → EReal → EReal
  | 0 => lo | 1 => lo | 2 => hi | 3 => hi
/-- The column neighbour of corner `l`. -/
def cy : Fin 4 → EReal → EReal
  | 0 => lo | 1 => hi | 2 => lo | 3 => hi

/-- The target row (or column): the neighbour's offset, as a word, plus the pixel's own row (column). -/
def cell (c : EReal) (base : BitVec 32) : BitVec 32 := IntOp.addi (Ideal.fptosi 32 c) base

/-- The target cell `(ix, iy)` lies inside the image. -/
def inside (ix iy : BitVec 32) : BitVec 1 :=
  IntOp.andi (IntOp.andi (IntOp.andi (IntOp.cmpi .sge ix 0#32) (IntOp.cmpi .slt ix 720#32)) (IntOp.cmpi .sge iy 0#32))
    (IntOp.cmpi .slt iy 1280#32)

/-- The flat position of the cell nearest to `(ix, iy)` inside image `n`. -/
def flat (n ix iy : BitVec 32) : BitVec 32 :=
  IntOp.addi (IntOp.muli (IntOp.addi (IntOp.muli n 720#32) (IntOp.minsi 719#32 (IntOp.maxsi 0#32 ix))) 1280#32)
    (IntOp.minsi 1279#32 (IntOp.maxsi 0#32 iy))

/-- Where the pixel at `(n, R, C)` with sample position `(x, y)` sends its contribution to neighbour `(xc, yc)`. -/
def target (n : BitVec 32) (xc yc : EReal) (R C : BitVec 32) : BitVec 32 := flat n (cell xc R) (cell yc C)

/-- The mass it sends there. -/
def mass (b x y xc yc : EReal) (R C : BitVec 32) : EReal :=
  Scalar.select (inside (cell xc R) (cell yc C)) (b * weight x y xc yc) lit0

/-- The value it sends there. -/
def value (a b x y xc yc : EReal) (R C : BitVec 32) : EReal :=
  Scalar.select (inside (cell xc R) (cell yc C)) (a * (b * weight x y xc yc)) lit0

/-- An index word brought into `[0, 7372800)` the way an array subscript is: a negative one counts from the end. -/
def wrap (z : BitVec 32) : BitVec 32 := Scalar.select (IntOp.cmpi .slt z 0#32) (IntOp.addi z 7372800#32) z

end Splat

end
-- ==== Proof.KerBlock.lean ====
/-
  What the kernel's body leaves in its three output blocks, as functions of the block index.

  At grid point `(n, hb)` the body reads four `[1, 120, 1280]` blocks — intensity, count, row shift, column shift of
  rows `120·hb … 120·hb + 119` of image `n` — and stores, for each of the four neighbours `l`, three `[120, 1280]`
  planes into plane `l` of its `[4, 1, 120, 1280]` output blocks: the flat target cell, the value and the mass that
  the pixel at row `r`, column `w` of the block sends to neighbour `l` (`Splat.target`, `Splat.value`, `Splat.mass`).
  The pixel's row in the image is the block's first row plus `r`, as the body computes it (`rowW`).
-/
import proofs.«126488_j84619445666296_1_alg».proof.Proof.FrameKernelIdeal
import proofs.«126488_j84619445666296_1_alg».proof.Proof.Splat
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Block

open Idealize.ShloMosaic Idealize.ShloMosaic.TcCoe Idealize.ShloMosaic.ValueIdx
open Cert.KernelIdeal Cert.KernelIdeal.Gen Cert.KernelIdeal.GenP

theorem hz3 : (![0, 0, 0] : Fin 3 → Nat) = fun _ => 0 := funext fun a => by fin_cases a <;> rfl

/-- An `[a, b]` plane stored as a `[1, 1, a, b]` piece reads, at `(u, v, i, j)`, the plane at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- Plane `l` of an output block, at the piece's own index, is the block's index `(l, 0, r, w)`. -/
theorem emb1 (u v : Fin 1) (r : Fin 120) (w : Fin 1280) :
    (r0_1 : Rect S4x1x120x1280).emb (ix4 u v r w) = ix4 (0 : Fin 4) (0 : Fin 1) r w := by
  funext a; apply Fin.ext
  match a with
  | ⟨0, _⟩ => show 0 + 1 * u.val = 0; omega
  | ⟨1, _⟩ => show 0 + 1 * v.val = 0; omega
  | ⟨2, _⟩ => show 0 + 1 * r.val = r.val; omega
  | ⟨3, _⟩ => show 0 + 1 * w.val = w.val; omega
theorem emb2 (u v : Fin 1) (r : Fin 120) (w : Fin 1280) :
    (r0_2 : Rect S4x1x120x1280).emb (ix4 u v r w) = ix4 (1 : Fin 4) (0 : Fin 1) r w := by
  funext a; apply Fin.ext
  match a with
  | ⟨0, _⟩ => show 1 + 1 * u.val = 1; omega
  | ⟨1, _⟩ => show 0 + 1 * v.val = 0; omega
  | ⟨2, _⟩ => show 0 + 1 * r.val = r.val; omega
  | ⟨3, _⟩ => show 0 + 1 * w.val = w.val; omega
theorem emb3 (u v : Fin 1) (r : Fin 120) (w : Fin 1280) :
    (r0_3 : Rect S4x1x120x1280).emb (ix4 u v r w) = ix4 (2 : Fin 4) (0 : Fin 1) r w := by
  funext a; apply Fin.ext
  match a with
  | ⟨0, _⟩ => show 2 + 1 * u.val = 2; omega
  | ⟨1, _⟩ => show 0 + 1 * v.val = 0; omega
  | ⟨2, _⟩ => show 0 + 1 * r.val = r.val; omega
  | ⟨3, _⟩ => show 0 + 1 * w.val = w.val; omega
theorem emb4 (u v : Fin 1) (r : Fin 120) (w : Fin 1280) :
    (r0_4 : Rect S4x1x120x1280).emb (ix4 u v r w) = ix4 (3 : Fin 4) (0 : Fin 1) r w := by
  funext a; apply Fin.ext
  match a with
  | ⟨0, _⟩ => show 3 + 1 * u.val = 3; omega
  | ⟨1, _⟩ => show 0 + 1 * v.val = 0; omega
  | ⟨2, _⟩ => show 0 + 1 * r.val = r.val; omega
  | ⟨3, _⟩ => show 0 + 1 * w.val = w.val; omega

/-- Row `r`, column `w` of a `[120, 1280]` plane, counted along the rows and along the columns. -/
theorem iota_row (r : Fin 120) (w : Fin 1280) :
    iota .tc S120x1280 32 [0] iota_S120x1280_d0_w32 (ix2 r w) = BitVec.ofNat 32 r.val :=
  iota_single_apply .tc S120x1280 32 0 iota_S120x1280_d0_w32 (ix2 r w)
theorem iota_col (r : Fin 120) (w : Fin 1280) :
    iota .tc S120x1280 32 [1] iota_S120x1280_d1_w32 (ix2 r w) = BitVec.ofNat 32 w.val :=
  iota_single_apply .tc S120x1280 32 1 iota_S120x1280_d1_w32 (ix2 r w)

/-- The conversion to a word and the scalar unit's product, as the operations they are on the extended reals. -/
theorem fptosi_def' (x : Ideal .f32) : FloatOps.fptosi (F := Ideal) 32 x = Ideal.fptosi 32 x := rfl
theorem scalar_muli_def (a b : BitVec 32) : Scalar.muli a b = IntOp.muli a b := rfl

/-- The row of the image that row `r` of the block at grid point `i` is, as the body computes it. -/
def rowW (i : grid0.Coords) (r : Fin 120) : BitVec 32 :=
  IntOp.addi (BitVec.ofNat 32 r.val) (Scalar.muli (BitVec.ofNat 32 (i 1).val) 120#32)

/-- The target cells the block's pixels send to, neighbour by neighbour. -/
def tgtB (i : grid0.Coords) (x2 x3 : S1x120x1280.Idx → EReal) : S4x1x120x1280.Idx → BitVec 32 := fun y =>
  Splat.target (BitVec.ofNat 32 (i 0).val) (Splat.cx (y 0) (x2 (ix3 (0 : Fin 1) (y 2) (y 3))))
    (Splat.cy (y 0) (x3 (ix3 (0 : Fin 1) (y 2) (y 3)))) (rowW i (y 2)) (BitVec.ofNat 32 (y 3).val)

/-- The values they send. -/
def valB (i : grid0.Coords) (x0 x1 x2 x3 : S1x120x1280.Idx → EReal) : S4x1x120x1280.Idx → EReal := fun y =>
  Splat.value (x0 (ix3 (0 : Fin 1) (y 2) (y 3))) (x1 (ix3 (0 : Fin 1) (y 2) (y 3))) (x2 (ix3 (0 : Fin 1) (y 2) (y 3)))
    (x3 (ix3 (0 : Fin 1) (y 2) (y 3))) (Splat.cx (y 0) (x2 (ix3 (0 : Fin 1) (y 2) (y 3))))
    (Splat.cy (y 0) (x3 (ix3 (0 : Fin 1) (y 2) (y 3)))) (rowW i (y 2)) (BitVec.ofNat 32 (y 3).val)

/-- The masses they send. -/
def massB (i : grid0.Coords) (x1 x2 x3 : S1x120x1280.Idx → EReal) : S4x1x120x1280.Idx → EReal := fun y =>
  Splat.mass (x1 (ix3 (0 : Fin 1) (y 2) (y 3))) (x2 (ix3 (0 : Fin 1) (y 2) (y 3)))
    (x3 (ix3 (0 : Fin 1) (y 2) (y 3))) (Splat.cx (y 0) (x2 (ix3 (0 : Fin 1) (y 2) (y 3))))
    (Splat.cy (y 0) (x3 (ix3 (0 : Fin 1) (y 2) (y 3)))) (rowW i (y 2)) (BitVec.ofNat 32 (y 3).val)

/-- The negation the body writes as a difference from zero. -/
theorem zero_sub' (t : EReal) : Ideal.ofBits .f32 0x00000000#32 - t = -t := by
  rw [Ideal.ofBits_zero_f32, zero_sub]

set_option maxHeartbeats 1600000 in
/-- The index block after the body: every pixel's target cell, neighbour by neighbour. -/
theorem out4_eq (i : grid0.Coords) (x0 x1 x2 x3 : Vec Ideal S1x120x1280 .f32) :
    out0_4 (F := Ideal) i x0 x1 x2 x3 = tgtB i x2 x3 := by
  funext y
  unfold out0_4
  refine View.canon_apply_of_pieces (tgtB i x2 x3) _ ?_ y (cover0_4 (F := Ideal) _ _ _ _ y)
  intro p hp
  simp only [List.mem_cons, List.mem_nil_iff, or_false] at hp
  rcases hp with rfl | rfl | rfl | rfl
  all_goals
    intro x
    obtain ⟨u, v, r, w, rfl⟩ : ∃ (u v : Fin 1) (r : Fin 120) (w : Fin 1280), x = ix4 u v r w :=
      ⟨x 0, x 1, x 2, x 3, eq_ix4 x⟩
    dsimp only
  · rw [emb4]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : tgtB i x2 x3 (ix4 3 0 r w) = Splat.target (BitVec.ofNat 32 (i 0).val) (Splat.hi (x2 (ix3 (0 : Fin 1) r w))) (Splat.hi (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : tgtB i x2 x3 (ix4 2 0 r w) = Splat.target (BitVec.ofNat 32 (i 0).val) (Splat.hi (x2 (ix3 (0 : Fin 1) r w))) (Splat.lo (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb2]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : tgtB i x2 x3 (ix4 1 0 r w) = Splat.target (BitVec.ofNat 32 (i 0).val) (Splat.lo (x2 (ix3 (0 : Fin 1) r w))) (Splat.hi (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb1]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : tgtB i x2 x3 (ix4 0 0 r w) = Splat.target (BitVec.ofNat 32 (i 0).val) (Splat.lo (x2 (ix3 (0 : Fin 1) r w))) (Splat.lo (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]

set_option maxHeartbeats 1600000 in
/-- The value block after the body: what every pixel sends, neighbour by neighbour. -/
theorem out5_eq (i : grid0.Coords) (x0 x1 x2 x3 : Vec Ideal S1x120x1280 .f32) :
    out0_5 (F := Ideal) i x0 x1 x2 x3 = valB i x0 x1 x2 x3 := by
  funext y
  unfold out0_5
  refine View.canon_apply_of_pieces (valB i x0 x1 x2 x3) _ ?_ y (cover0_5 (F := Ideal) _ _ _ _ y)
  intro p hp
  simp only [List.mem_cons, List.mem_nil_iff, or_false] at hp
  rcases hp with rfl | rfl | rfl | rfl
  all_goals
    intro x
    obtain ⟨u, v, r, w, rfl⟩ : ∃ (u v : Fin 1) (r : Fin 120) (w : Fin 1280), x = ix4 u v r w :=
      ⟨x 0, x 1, x 2, x 3, eq_ix4 x⟩
    dsimp only
  · rw [emb4]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : valB i x0 x1 x2 x3 (ix4 3 0 r w) = Splat.value (x0 (ix3 (0 : Fin 1) r w)) (x1 (ix3 (0 : Fin 1) r w)) (x2 (ix3 (0 : Fin 1) r w)) (x3 (ix3 (0 : Fin 1) r w)) (Splat.hi (x2 (ix3 (0 : Fin 1) r w))) (Splat.hi (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : valB i x0 x1 x2 x3 (ix4 2 0 r w) = Splat.value (x0 (ix3 (0 : Fin 1) r w)) (x1 (ix3 (0 : Fin 1) r w)) (x2 (ix3 (0 : Fin 1) r w)) (x3 (ix3 (0 : Fin 1) r w)) (Splat.hi (x2 (ix3 (0 : Fin 1) r w))) (Splat.lo (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb2]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : valB i x0 x1 x2 x3 (ix4 1 0 r w) = Splat.value (x0 (ix3 (0 : Fin 1) r w)) (x1 (ix3 (0 : Fin 1) r w)) (x2 (ix3 (0 : Fin 1) r w)) (x3 (ix3 (0 : Fin 1) r w)) (Splat.lo (x2 (ix3 (0 : Fin 1) r w))) (Splat.hi (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb1]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : valB i x0 x1 x2 x3 (ix4 0 0 r w) = Splat.value (x0 (ix3 (0 : Fin 1) r w)) (x1 (ix3 (0 : Fin 1) r w)) (x2 (ix3 (0 : Fin 1) r w)) (x3 (ix3 (0 : Fin 1) r w)) (Splat.lo (x2 (ix3 (0 : Fin 1) r w))) (Splat.lo (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]

set_option maxHeartbeats 1600000 in
/-- The mass block after the body. -/
theorem out6_eq (i : grid0.Coords) (x0 x1 x2 x3 : Vec Ideal S1x120x1280 .f32) :
    out0_6 (F := Ideal) i x0 x1 x2 x3 = massB i x1 x2 x3 := by
  funext y
  unfold out0_6
  refine View.canon_apply_of_pieces (massB i x1 x2 x3) _ ?_ y (cover0_6 (F := Ideal) _ _ _ _ y)
  intro p hp
  simp only [List.mem_cons, List.mem_nil_iff, or_false] at hp
  rcases hp with rfl | rfl | rfl | rfl
  all_goals
    intro x
    obtain ⟨u, v, r, w, rfl⟩ : ∃ (u v : Fin 1) (r : Fin 120) (w : Fin 1280), x = ix4 u v r w :=
      ⟨x 0, x 1, x 2, x 3, eq_ix4 x⟩
    dsimp only
  · rw [emb4]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : massB i x1 x2 x3 (ix4 3 0 r w) = Splat.mass (x1 (ix3 (0 : Fin 1) r w)) (x2 (ix3 (0 : Fin 1) r w)) (x3 (ix3 (0 : Fin 1) r w)) (Splat.hi (x2 (ix3 (0 : Fin 1) r w))) (Splat.hi (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : massB i x1 x2 x3 (ix4 2 0 r w) = Splat.mass (x1 (ix3 (0 : Fin 1) r w)) (x2 (ix3 (0 : Fin 1) r w)) (x3 (ix3 (0 : Fin 1) r w)) (Splat.hi (x2 (ix3 (0 : Fin 1) r w))) (Splat.lo (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb2]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : massB i x1 x2 x3 (ix4 1 0 r w) = Splat.mass (x1 (ix3 (0 : Fin 1) r w)) (x2 (ix3 (0 : Fin 1) r w)) (x3 (ix3 (0 : Fin 1) r w)) (Splat.lo (x2 (ix3 (0 : Fin 1) r w))) (Splat.hi (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]
  · rw [emb1]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, View.ld_unit_zero (S := S1x120x1280) hz3, shapeCast_ab_11ab_apply]
    simp only [addi, muli, minsi, maxsi, cmpi, andi, fptosi, addf, subf, mulf, divf, Idealize.ShloMosaic.floor,
      Idealize.ShloMosaic.exp, select, broadcast, shapeCast_1ab_ab_apply, fptosi_def', scalar_muli_def,
      Ideal.addf_def, Ideal.subf_def, Ideal.mulf_def, Ideal.divf_def, Ideal.floor_def, Ideal.exp_def, Ideal.ofBits_def, zero_sub']
    have e : massB i x1 x2 x3 (ix4 0 0 r w) = Splat.mass (x1 (ix3 (0 : Fin 1) r w)) (x2 (ix3 (0 : Fin 1) r w)) (x3 (ix3 (0 : Fin 1) r w)) (Splat.lo (x2 (ix3 (0 : Fin 1) r w))) (Splat.lo (x3 (ix3 (0 : Fin 1) r w))) (rowW i r) (BitVec.ofNat 32 w.val) := rfl
    rw [e]
    simp only [Splat.target, Splat.value, Splat.mass, Splat.inside, Splat.weight, Splat.total, Splat.gauss, Splat.sq,
      Splat.flat, Splat.cell, Splat.hi, Splat.lo, rowW, scalar_muli_def]
    rw [iota_row r w, iota_col r w]

end Cert.KernelIdeal.Block

end
-- ==== Proof.KerWhole.lean ====
/-
  The kernel's three output arrays after the region, as whole-array functions.

  The grid is `8 × 6`: point `(n, hb)` handles rows `120·hb … 120·hb + 119` of image `n`. Its output blocks are the
  `[4, 1, 120, 1280]` boxes at plane 0, image `n`, row `120·hb`, column 0 of the `[4, 8, 720, 1280]` arrays; its input
  blocks the `[1, 120, 1280]` boxes at the same image and rows of the four staged `[8, 720, 1280]` arrays. The output
  boxes tile the arrays, and what the body leaves in a box (`Block.tgtB`, `valB`, `massB`) is the restriction of one
  function of the array index: entry `(l, n, h, w)` is what pixel `(h, w)` of image `n` sends to its neighbour `l`
  (`tgtW`, `valW`, `massW`). So each array ends holding that function.
-/
import proofs.«126488_j84619445666296_1_alg».proof.Proof.KerBlock

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.GenP Cert.KernelIdeal.Block
open Idealize.ShloMosaic.Pipeline (Dat)

variable (m : (ℓ : Loc nD τ sig) → Buf (Elt Ideal) ℓ)

/-- The target cells of every pixel of every image, neighbour by neighbour, from the staged row- and column-shift arrays. -/
def tgtW (A2 A3 : S8x720x1280.Idx → EReal) : S4x8x720x1280.Idx → BitVec 32 := fun k =>
  Splat.target (BitVec.ofNat 32 (k 1).val) (Splat.cx (k 0) (A2 (ix3 (k 1) (k 2) (k 3))))
    (Splat.cy (k 0) (A3 (ix3 (k 1) (k 2) (k 3)))) (BitVec.ofNat 32 (k 2).val) (BitVec.ofNat 32 (k 3).val)

/-- The values they send, from the four staged arrays. -/
def valW (A0 A1 A2 A3 : S8x720x1280.Idx → EReal) : S4x8x720x1280.Idx → EReal := fun k =>
  Splat.value (A0 (ix3 (k 1) (k 2) (k 3))) (A1 (ix3 (k 1) (k 2) (k 3))) (A2 (ix3 (k 1) (k 2) (k 3)))
    (A3 (ix3 (k 1) (k 2) (k 3))) (Splat.cx (k 0) (A2 (ix3 (k 1) (k 2) (k 3))))
    (Splat.cy (k 0) (A3 (ix3 (k 1) (k 2) (k 3)))) (BitVec.ofNat 32 (k 2).val) (BitVec.ofNat 32 (k 3).val)

/-- The masses they send. -/
def massW (A1 A2 A3 : S8x720x1280.Idx → EReal) : S4x8x720x1280.Idx → EReal := fun k =>
  Splat.mass (A1 (ix3 (k 1) (k 2) (k 3))) (A2 (ix3 (k 1) (k 2) (k 3)))
    (A3 (ix3 (k 1) (k 2) (k 3))) (Splat.cx (k 0) (A2 (ix3 (k 1) (k 2) (k 3))))
    (Splat.cy (k 0) (A3 (ix3 (k 1) (k 2) (k 3)))) (BitVec.ofNat 32 (k 2).val) (BitVec.ofNat 32 (k 3).val)

/-- The body's row word is the row's number in the image: the block's first row `120·hb` plus the row in the block. -/
theorem row_eq (i : grid0.Coords) (r : Fin 120) (K : ℕ) (h : K = (i 1).val * 120 + r.val) :
    rowW i r = BitVec.ofNat 32 K := by
  subst h
  unfold rowW
  simp only [scalar_muli_def, IntOp.addi, IntOp.muli]
  apply BitVec.eq_of_toNat_eq
  simp only [BitVec.toNat_add, BitVec.toNat_mul, BitVec.toNat_ofNat]
  omega

/-- At one pixel: the block's target cell is the array's, given where the block sits. -/
theorem tgt_point (i : grid0.Coords) (B2 B3 : S1x120x1280.Idx → EReal) (A2 A3 : S8x720x1280.Idx → EReal)
    (y : S4x1x120x1280.Idx) (k : S4x8x720x1280.Idx)
    (h0 : k 0 = y 0) (h1 : (k 1).val = (i 0).val) (h2 : (k 2).val = (i 1).val * 120 + (y 2).val) (h3 : (k 3).val = (y 3).val)
    (hB2 : B2 (ix3 (0 : Fin 1) (y 2) (y 3)) = A2 (ix3 (k 1) (k 2) (k 3)))
    (hB3 : B3 (ix3 (0 : Fin 1) (y 2) (y 3)) = A3 (ix3 (k 1) (k 2) (k 3))) :
    tgtB i B2 B3 y = tgtW A2 A3 k := by
  unfold tgtB tgtW
  rw [hB2, hB3, h0, h1, h3, row_eq i (y 2) (k 2).val h2]

theorem val_point (i : grid0.Coords) (B0 B1 B2 B3 : S1x120x1280.Idx → EReal) (A0 A1 A2 A3 : S8x720x1280.Idx → EReal)
    (y : S4x1x120x1280.Idx) (k : S4x8x720x1280.Idx)
    (h0 : k 0 = y 0) (h2 : (k 2).val = (i 1).val * 120 + (y 2).val) (h3 : (k 3).val = (y 3).val)
    (hB0 : B0 (ix3 (0 : Fin 1) (y 2) (y 3)) = A0 (ix3 (k 1) (k 2) (k 3)))
    (hB1 : B1 (ix3 (0 : Fin 1) (y 2) (y 3)) = A1 (ix3 (k 1) (k 2) (k 3)))
    (hB2 : B2 (ix3 (0 : Fin 1) (y 2) (y 3)) = A2 (ix3 (k 1) (k 2) (k 3)))
    (hB3 : B3 (ix3 (0 : Fin 1) (y 2) (y 3)) = A3 (ix3 (k 1) (k 2) (k 3))) :
    valB i B0 B1 B2 B3 y = valW A0 A1 A2 A3 k := by
  unfold valB valW
  rw [hB0, hB1, hB2, hB3, h0, h3, row_eq i (y 2) (k 2).val h2]

theorem mass_point (i : grid0.Coords) (B1 B2 B3 : S1x120x1280.Idx → EReal) (A1 A2 A3 : S8x720x1280.Idx → EReal)
    (y : S4x1x120x1280.Idx) (k : S4x8x720x1280.Idx)
    (h0 : k 0 = y 0) (h2 : (k 2).val = (i 1).val * 120 + (y 2).val) (h3 : (k 3).val = (y 3).val)
    (hB1 : B1 (ix3 (0 : Fin 1) (y 2) (y 3)) = A1 (ix3 (k 1) (k 2) (k 3)))
    (hB2 : B2 (ix3 (0 : Fin 1) (y 2) (y 3)) = A2 (ix3 (k 1) (k 2) (k 3)))
    (hB3 : B3 (ix3 (0 : Fin 1) (y 2) (y 3)) = A3 (ix3 (k 1) (k 2) (k 3))) :
    massB i B1 B2 B3 y = massW A1 A2 A3 k := by
  unfold massB massW
  rw [hB1, hB2, hB3, h0, h3, row_eq i (y 2) (k 2).val h2]

/-- The printed index maps, decided over the 48 grid points: an output block sits at plane 0, image `n`, block row `hb`,
    column block 0, and each input block at image `n`, block row `hb`, column block 0. -/
theorem idx_facts : ∀ t : Fin cfg0.N, win0_4.index t (0 : Fin 4) = 0
    ∧ win0_4.index t (1 : Fin 4) = (grid0.coords t 0).val
    ∧ win0_4.index t (2 : Fin 4) = (grid0.coords t 1).val
    ∧ win0_4.index t (3 : Fin 4) = 0
    ∧ win0_5.index t (0 : Fin 4) = 0
    ∧ win0_5.index t (1 : Fin 4) = (grid0.coords t 0).val
    ∧ win0_5.index t (2 : Fin 4) = (grid0.coords t 1).val
    ∧ win0_5.index t (3 : Fin 4) = 0
    ∧ win0_6.index t (0 : Fin 4) = 0
    ∧ win0_6.index t (1 : Fin 4) = (grid0.coords t 0).val
    ∧ win0_6.index t (2 : Fin 4) = (grid0.coords t 1).val
    ∧ win0_6.index t (3 : Fin 4) = 0
    ∧ win0_0.index t (0 : Fin 3) = (grid0.coords t 0).val
    ∧ win0_0.index t (1 : Fin 3) = (grid0.coords t 1).val
    ∧ win0_0.index t (2 : Fin 3) = 0
    ∧ win0_1.index t (0 : Fin 3) = (grid0.coords t 0).val
    ∧ win0_1.index t (1 : Fin 3) = (grid0.coords t 1).val
    ∧ win0_1.index t (2 : Fin 3) = 0
    ∧ win0_2.index t (0 : Fin 3) = (grid0.coords t 0).val
    ∧ win0_2.index t (1 : Fin 3) = (grid0.coords t 1).val
    ∧ win0_2.index t (2 : Fin 3) = 0
    ∧ win0_3.index t (0 : Fin 3) = (grid0.coords t 0).val
    ∧ win0_3.index t (1 : Fin 3) = (grid0.coords t 1).val
    ∧ win0_3.index t (2 : Fin 3) = 0 :=
  (by decide +kernel : ∀ t : Fin grid0.N, _)

/-- Every image and block row is some grid point's. -/
theorem pts_onto : ∀ (q0 : Fin 8) (q1 : Fin 6), ∃ t : Fin cfg0.N, (grid0.coords t 0).val = q0.val ∧ (grid0.coords t 1).val = q1.val :=
  (by decide +kernel : ∀ (q0 : Fin 8) (q1 : Fin 6), ∃ t : Fin grid0.N, (grid0.coords t 0).val = q0.val ∧ (grid0.coords t 1).val = q1.val)

/-- The coordinates of output window 4's block at point `t`: plane, image `n`, row `120·hb + r`, column. -/
theorem emb4_coords (t : Fin cfg0.N) (y : S4x1x120x1280.Idx) :
    (((cfg0.win 4).blk t).view.emb y) 0 = y 0
    ∧ ((((cfg0.win 4).blk t).view.emb y) 1).val = (grid0.coords t 0).val
    ∧ ((((cfg0.win 4).blk t).view.emb y) 2).val = (grid0.coords t 1).val * 120 + (y 2).val
    ∧ ((((cfg0.win 4).blk t).view.emb y) 3).val = (y 3).val := by
  obtain ⟨f0, f1, f2, f3, f4, f5, f6, f7, f8, f9, f10, f11, f12, f13, f14, f15, f16, f17, f18, f19, f20, f21, f22, f23⟩ := idx_facts t
  have hy1 : (y 1).val < 1 := (y 1).isLt
  refine ⟨Fin.ext ?_, ?_, ?_, ?_⟩
  · show win0_4.index t (0 : Fin 4) * 4 + 1 * (y 0).val = (y 0).val; omega
  · show win0_4.index t (1 : Fin 4) * 1 + 1 * (y 1).val = _; omega
  · show win0_4.index t (2 : Fin 4) * 120 + 1 * (y 2).val = _; omega
  · show win0_4.index t (3 : Fin 4) * 1280 + 1 * (y 3).val = _; omega

/-- The coordinates of output window 5's block at point `t`: plane, image `n`, row `120·hb + r`, column. -/
theorem emb5_coords (t : Fin cfg0.N) (y : S4x1x120x1280.Idx) :
    (((cfg0.win 5).blk t).view.emb y) 0 = y 0
    ∧ ((((cfg0.win 5).blk t).view.emb y) 1).val = (grid0.coords t 0).val
    ∧ ((((cfg0.win 5).blk t).view.emb y) 2).val = (grid0.coords t 1).val * 120 + (y 2).val
    ∧ ((((cfg0.win 5).blk t).view.emb y) 3).val = (y 3).val := by
  obtain ⟨f0, f1, f2, f3, f4, f5, f6, f7, f8, f9, f10, f11, f12, f13, f14, f15, f16, f17, f18, f19, f20, f21, f22, f23⟩ := idx_facts t
  have hy1 : (y 1).val < 1 := (y 1).isLt
  refine ⟨Fin.ext ?_, ?_, ?_, ?_⟩
  · show win0_5.index t (0 : Fin 4) * 4 + 1 * (y 0).val = (y 0).val; omega
  · show win0_5.index t (1 : Fin 4) * 1 + 1 * (y 1).val = _; omega
  · show win0_5.index t (2 : Fin 4) * 120 + 1 * (y 2).val = _; omega
  · show win0_5.index t (3 : Fin 4) * 1280 + 1 * (y 3).val = _; omega

/-- The coordinates of output window 6's block at point `t`: plane, image `n`, row `120·hb + r`, column. -/
theorem emb6_coords (t : Fin cfg0.N) (y : S4x1x120x1280.Idx) :
    (((cfg0.win 6).blk t).view.emb y) 0 = y 0
    ∧ ((((cfg0.win 6).blk t).view.emb y) 1).val = (grid0.coords t 0).val
    ∧ ((((cfg0.win 6).blk t).view.emb y) 2).val = (grid0.coords t 1).val * 120 + (y 2).val
    ∧ ((((cfg0.win 6).blk t).view.emb y) 3).val = (y 3).val := by
  obtain ⟨f0, f1, f2, f3, f4, f5, f6, f7, f8, f9, f10, f11, f12, f13, f14, f15, f16, f17, f18, f19, f20, f21, f22, f23⟩ := idx_facts t
  have hy1 : (y 1).val < 1 := (y 1).isLt
  refine ⟨Fin.ext ?_, ?_, ?_, ?_⟩
  · show win0_6.index t (0 : Fin 4) * 4 + 1 * (y 0).val = (y 0).val; omega
  · show win0_6.index t (1 : Fin 4) * 1 + 1 * (y 1).val = _; omega
  · show win0_6.index t (2 : Fin 4) * 120 + 1 * (y 2).val = _; omega
  · show win0_6.index t (3 : Fin 4) * 1280 + 1 * (y 3).val = _; omega

/-- Input window 0's block at point `t`, at row `y 2` and column `y 3`, is the staged array at the image, row and column
    that output window 4's block has there. -/
theorem blk0_4 (c : Dev nD) (t : Fin cfg0.N) (y : S4x1x120x1280.Idx) :
    iblk m c 0 t (ix3 (0 : Fin 1) (y 2) (y 3))
      = V m c main_v0 (ix3 ((((cfg0.win 4).blk t).view.emb y) 1) ((((cfg0.win 4).blk t).view.emb y) 2) ((((cfg0.win 4).blk t).view.emb y) 3)) := by
  show V m c main_v0 (((cfg0.win 0).blk t).view.emb (ix3 (0 : Fin 1) (y 2) (y 3))) = V m c main_v0 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_0.index t (0 : Fin 3) * 1 + 1 * 0 = win0_4.index t (1 : Fin 4) * 1 + 1 * (y 1).val; omega
  | ⟨1, _⟩ => show win0_0.index t (1 : Fin 3) * 120 + 1 * (y 2).val = win0_4.index t (2 : Fin 4) * 120 + 1 * (y 2).val; omega
  | ⟨2, _⟩ => show win0_0.index t (2 : Fin 3) * 1280 + 1 * (y 3).val = win0_4.index t (3 : Fin 4) * 1280 + 1 * (y 3).val; omega

/-- Input window 1's block at point `t`, at row `y 2` and column `y 3`, is the staged array at the image, row and column
    that output window 4's block has there. -/
theorem blk1_4 (c : Dev nD) (t : Fin cfg0.N) (y : S4x1x120x1280.Idx) :
    iblk m c 1 t (ix3 (0 : Fin 1) (y 2) (y 3))
      = V m c main_v1 (ix3 ((((cfg0.win 4).blk t).view.emb y) 1) ((((cfg0.win 4).blk t).view.emb y) 2) ((((cfg0.win 4).blk t).view.emb y) 3)) := by
  show V m c main_v1 (((cfg0.win 1).blk t).view.emb (ix3 (0 : Fin 1) (y 2) (y 3))) = V m c main_v1 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_1.index t (0 : Fin 3) * 1 + 1 * 0 = win0_4.index t (1 : Fin 4) * 1 + 1 * (y 1).val; omega
  | ⟨1, _⟩ => show win0_1.index t (1 : Fin 3) * 120 + 1 * (y 2).val = win0_4.index t (2 : Fin 4) * 120 + 1 * (y 2).val; omega
  | ⟨2, _⟩ => show win0_1.index t (2 : Fin 3) * 1280 + 1 * (y 3).val = win0_4.index t (3 : Fin 4) * 1280 + 1 * (y 3).val; omega

/-- Input window 2's block at point `t`, at row `y 2` and column `y 3`, is the staged array at the image, row and column
    that output window 4's block has there. -/
theorem blk2_4 (c : Dev nD) (t : Fin cfg0.N) (y : S4x1x120x1280.Idx) :
    iblk m c 2 t (ix3 (0 : Fin 1) (y 2) (y 3))
      = V m c main_v3 (ix3 ((((cfg0.win 4).blk t).view.emb y) 1) ((((cfg0.win 4).blk t).view.emb y) 2) ((((cfg0.win 4).blk t).view.emb y) 3)) := by
  show V m c main_v3 (((cfg0.win 2).blk t).view.emb (ix3 (0 : Fin 1) (y 2) (y 3))) = V m c main_v3 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_2.index t (0 : Fin 3) * 1 + 1 * 0 = win0_4.index t (1 : Fin 4) * 1 + 1 * (y 1).val; omega
  | ⟨1, _⟩ => show win0_2.index t (1 : Fin 3) * 120 + 1 * (y 2).val = win0_4.index t (2 : Fin 4) * 120 + 1 * (y 2).val; omega
  | ⟨2, _⟩ => show win0_2.index t (2 : Fin 3) * 1280 + 1 * (y 3).val = win0_4.index t (3 : Fin 4) * 1280 + 1 * (y 3).val; omega

/-- Input window 3's block at point `t`, at row `y 2` and column `y 3`, is the staged array at the image, row and column
    that output window 4's block has there. -/
theorem blk3_4 (c : Dev nD) (t : Fin cfg0.N) (y : S4x1x120x1280.Idx) :
    iblk m c 3 t (ix3 (0 : Fin 1) (y 2) (y 3))
      = V m c main_v5 (ix3 ((((cfg0.win 4).blk t).view.emb y) 1) ((((cfg0.win 4).blk t).view.emb y) 2) ((((cfg0.win 4).blk t).view.emb y) 3)) := by
  show V m c main_v5 (((cfg0.win 3).blk t).view.emb (ix3 (0 : Fin 1) (y 2) (y 3))) = V m c main_v5 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_3.index t (0 : Fin 3) * 1 + 1 * 0 = win0_4.index t (1 : Fin 4) * 1 + 1 * (y 1).val; omega
  | ⟨1, _⟩ => show win0_3.index t (1 : Fin 3) * 120 + 1 * (y 2).val = win0_4.index t (2 : Fin 4) * 120 + 1 * (y 2).val; omega
  | ⟨2, _⟩ => show win0_3.index t (2 : Fin 3) * 1280 + 1 * (y 3).val = win0_4.index t (3 : Fin 4) * 1280 + 1 * (y 3).val; omega

/-- Input window 0's block at point `t`, at row `y 2` and column `y 3`, is the staged array at the image, row and column
    that output window 5's block has there. -/
theorem blk0_5 (c : Dev nD) (t : Fin cfg0.N) (y : S4x1x120x1280.Idx) :
    iblk m c 0 t (ix3 (0 : Fin 1) (y 2) (y 3))
      = V m c main_v0 (ix3 ((((cfg0.win 5).blk t).view.emb y) 1) ((((cfg0.win 5).blk t).view.emb y) 2) ((((cfg0.win 5).blk t).view.emb y) 3)) := by
  show V m c main_v0 (((cfg0.win 0).blk t).view.emb (ix3 (0 : Fin 1) (y 2) (y 3))) = V m c main_v0 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_0.index t (0 : Fin 3) * 1 + 1 * 0 = win0_5.index t (1 : Fin 4) * 1 + 1 * (y 1).val; omega
  | ⟨1, _⟩ => show win0_0.index t (1 : Fin 3) * 120 + 1 * (y 2).val = win0_5.index t (2 : Fin 4) * 120 + 1 * (y 2).val; omega
  | ⟨2, _⟩ => show win0_0.index t (2 : Fin 3) * 1280 + 1 * (y 3).val = win0_5.index t (3 : Fin 4) * 1280 + 1 * (y 3).val; omega

/-- Input window 1's block at point `t`, at row `y 2` and column `y 3`, is the staged array at the image, row and column
    that output window 5's block has there. -/
theorem blk1_5 (c : Dev nD) (t : Fin cfg0.N) (y : S4x1x120x1280.Idx) :
    iblk m c 1 t (ix3 (0 : Fin 1) (y 2) (y 3))
      = V m c main_v1 (ix3 ((((cfg0.win 5).blk t).view.emb y) 1) ((((cfg0.win 5).blk t).view.emb y) 2) ((((cfg0.win 5).blk t).view.emb y) 3)) := by
  show V m c main_v1 (((cfg0.win 1).blk t).view.emb (ix3 (0 : Fin 1) (y 2) (y 3))) = V m c main_v1 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_1.index t (0 : Fin 3) * 1 + 1 * 0 = win0_5.index t (1 : Fin 4) * 1 + 1 * (y 1).val; omega
  | ⟨1, _⟩ => show win0_1.index t (1 : Fin 3) * 120 + 1 * (y 2).val = win0_5.index t (2 : Fin 4) * 120 + 1 * (y 2).val; omega
  | ⟨2, _⟩ => show win0_1.index t (2 : Fin 3) * 1280 + 1 * (y 3).val = win0_5.index t (3 : Fin 4) * 1280 + 1 * (y 3).val; omega

/-- Input window 2's block at point `t`, at row `y 2` and column `y 3`, is the staged array at the image, row and column
    that output window 5's block has there. -/
theorem blk2_5 (c : Dev nD) (t : Fin cfg0.N) (y : S4x1x120x1280.Idx) :
    iblk m c 2 t (ix3 (0 : Fin 1) (y 2) (y 3))
      = V m c main_v3 (ix3 ((((cfg0.win 5).blk t).view.emb y) 1) ((((cfg0.win 5).blk t).view.emb y) 2) ((((cfg0.win 5).blk t).view.emb y) 3)) := by
  show V m c main_v3 (((cfg0.win 2).blk t).view.emb (ix3 (0 : Fin 1) (y 2) (y 3))) = V m c main_v3 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_2.index t (0 : Fin 3) * 1 + 1 * 0 = win0_5.index t (1 : Fin 4) * 1 + 1 * (y 1).val; omega
  | ⟨1, _⟩ => show win0_2.index t (1 : Fin 3) * 120 + 1 * (y 2).val = win0_5.index t (2 : Fin 4) * 120 + 1 * (y 2).val; omega
  | ⟨2, _⟩ => show win0_2.index t (2 : Fin 3) * 1280 + 1 * (y 3).val = win0_5.index t (3 : Fin 4) * 1280 + 1 * (y 3).val; omega

/-- Input window 3's block at point `t`, at row `y 2` and column `y 3`, is the staged array at the image, row and column
    that output window 5's block has there. -/
theorem blk3_5 (c : Dev nD) (t : Fin cfg0.N) (y : S4x1x120x1280.Idx) :
    iblk m c 3 t (ix3 (0 : Fin 1) (y 2) (y 3))
      = V m c main_v5 (ix3 ((((cfg0.win 5).blk t).view.emb y) 1) ((((cfg0.win 5).blk t).view.emb y) 2) ((((cfg0.win 5).blk t).view.emb y) 3)) := by
  show V m c main_v5 (((cfg0.win 3).blk t).view.emb (ix3 (0 : Fin 1) (y 2) (y 3))) = V m c main_v5 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_3.index t (0 : Fin 3) * 1 + 1 * 0 = win0_5.index t (1 : Fin 4) * 1 + 1 * (y 1).val; omega
  | ⟨1, _⟩ => show win0_3.index t (1 : Fin 3) * 120 + 1 * (y 2).val = win0_5.index t (2 : Fin 4) * 120 + 1 * (y 2).val; omega
  | ⟨2, _⟩ => show win0_3.index t (2 : Fin 3) * 1280 + 1 * (y 3).val = win0_5.index t (3 : Fin 4) * 1280 + 1 * (y 3).val; omega

/-- Input window 0's block at point `t`, at row `y 2` and column `y 3`, is the staged array at the image, row and column
    that output window 6's block has there. -/
theorem blk0_6 (c : Dev nD) (t : Fin cfg0.N) (y : S4x1x120x1280.Idx) :
    iblk m c 0 t (ix3 (0 : Fin 1) (y 2) (y 3))
      = V m c main_v0 (ix3 ((((cfg0.win 6).blk t).view.emb y) 1) ((((cfg0.win 6).blk t).view.emb y) 2) ((((cfg0.win 6).blk t).view.emb y) 3)) := by
  show V m c main_v0 (((cfg0.win 0).blk t).view.emb (ix3 (0 : Fin 1) (y 2) (y 3))) = V m c main_v0 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_0.index t (0 : Fin 3) * 1 + 1 * 0 = win0_6.index t (1 : Fin 4) * 1 + 1 * (y 1).val; omega
  | ⟨1, _⟩ => show win0_0.index t (1 : Fin 3) * 120 + 1 * (y 2).val = win0_6.index t (2 : Fin 4) * 120 + 1 * (y 2).val; omega
  | ⟨2, _⟩ => show win0_0.index t (2 : Fin 3) * 1280 + 1 * (y 3).val = win0_6.index t (3 : Fin 4) * 1280 + 1 * (y 3).val; omega

/-- Input window 1's block at point `t`, at row `y 2` and column `y 3`, is the staged array at the image, row and column
    that output window 6's block has there. -/
theorem blk1_6 (c : Dev nD) (t : Fin cfg0.N) (y : S4x1x120x1280.Idx) :
    iblk m c 1 t (ix3 (0 : Fin 1) (y 2) (y 3))
      = V m c main_v1 (ix3 ((((cfg0.win 6).blk t).view.emb y) 1) ((((cfg0.win 6).blk t).view.emb y) 2) ((((cfg0.win 6).blk t).view.emb y) 3)) := by
  show V m c main_v1 (((cfg0.win 1).blk t).view.emb (ix3 (0 : Fin 1) (y 2) (y 3))) = V m c main_v1 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_1.index t (0 : Fin 3) * 1 + 1 * 0 = win0_6.index t (1 : Fin 4) * 1 + 1 * (y 1).val; omega
  | ⟨1, _⟩ => show win0_1.index t (1 : Fin 3) * 120 + 1 * (y 2).val = win0_6.index t (2 : Fin 4) * 120 + 1 * (y 2).val; omega
  | ⟨2, _⟩ => show win0_1.index t (2 : Fin 3) * 1280 + 1 * (y 3).val = win0_6.index t (3 : Fin 4) * 1280 + 1 * (y 3).val; omega

/-- Input window 2's block at point `t`, at row `y 2` and column `y 3`, is the staged array at the image, row and column
    that output window 6's block has there. -/
theorem blk2_6 (c : Dev nD) (t : Fin cfg0.N) (y : S4x1x120x1280.Idx) :
    iblk m c 2 t (ix3 (0 : Fin 1) (y 2) (y 3))
      = V m c main_v3 (ix3 ((((cfg0.win 6).blk t).view.emb y) 1) ((((cfg0.win 6).blk t).view.emb y) 2) ((((cfg0.win 6).blk t).view.emb y) 3)) := by
  show V m c main_v3 (((cfg0.win 2).blk t).view.emb (ix3 (0 : Fin 1) (y 2) (y 3))) = V m c main_v3 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_2.index t (0 : Fin 3) * 1 + 1 * 0 = win0_6.index t (1 : Fin 4) * 1 + 1 * (y 1).val; omega
  | ⟨1, _⟩ => show win0_2.index t (1 : Fin 3) * 120 + 1 * (y 2).val = win0_6.index t (2 : Fin 4) * 120 + 1 * (y 2).val; omega
  | ⟨2, _⟩ => show win0_2.index t (2 : Fin 3) * 1280 + 1 * (y 3).val = win0_6.index t (3 : Fin 4) * 1280 + 1 * (y 3).val; omega

/-- Input window 3's block at point `t`, at row `y 2` and column `y 3`, is the staged array at the image, row and column
    that output window 6's block has there. -/
theorem blk3_6 (c : Dev nD) (t : Fin cfg0.N) (y : S4x1x120x1280.Idx) :
    iblk m c 3 t (ix3 (0 : Fin 1) (y 2) (y 3))
      = V m c main_v5 (ix3 ((((cfg0.win 6).blk t).view.emb y) 1) ((((cfg0.win 6).blk t).view.emb y) 2) ((((cfg0.win 6).blk t).view.emb y) 3)) := by
  show V m c main_v5 (((cfg0.win 3).blk t).view.emb (ix3 (0 : Fin 1) (y 2) (y 3))) = V m c main_v5 _
  refine congrArg _ (funext fun a => Fin.ext ?_)
  obtain ⟨f0, f1, f2, f3, f4, f5, f6, f7, f8, f9, f10, f11, f12, f13, f14, f15, f16, f17, f18, f19, f20, f21, f22, f23⟩ := idx_facts t
  have hy1 : (y 1).val < 1 := (y 1).isLt
  match a with
  | ⟨0, _⟩ => show win0_3.index t (0 : Fin 3) * 1 + 1 * 0 = win0_6.index t (1 : Fin 4) * 1 + 1 * (y 1).val; omega
  | ⟨1, _⟩ => show win0_3.index t (1 : Fin 3) * 120 + 1 * (y 2).val = win0_6.index t (2 : Fin 4) * 120 + 1 * (y 2).val; omega
  | ⟨2, _⟩ => show win0_3.index t (2 : Fin 3) * 1280 + 1 * (y 3).val = win0_6.index t (3 : Fin 4) * 1280 + 1 * (y 3).val; omega

/-- WHAT POINT `t` WRITES BACK to the index array is block `t` of `tgtW` of the staged arrays. -/
theorem flushed4_eq (c : Dev nD) (t : Fin cfg0.N) :
    (dats m 0 c).flushed 4 t = ((cfg0.win 4).blk t).view.read (Elt Ideal) (tgtW (V m c main_v3) (V m c main_v5)) := by
  show (cfg0.win 4).cut (grid0.coords t) ((dats m 0 c).after 4 t) = _
  rw [after0_4, out4_eq]
  funext y
  obtain ⟨e0, e1, e2, e3⟩ := emb4_coords t y
  exact tgt_point (grid0.coords t) _ _ _ _ y _ e0 e1 e2 e3 (blk2_4 m c t y) (blk3_4 m c t y)

theorem flushed5_eq (c : Dev nD) (t : Fin cfg0.N) :
    (dats m 0 c).flushed 5 t = ((cfg0.win 5).blk t).view.read (Elt Ideal) (valW (V m c main_v0) (V m c main_v1) (V m c main_v3) (V m c main_v5)) := by
  show (cfg0.win 5).cut (grid0.coords t) ((dats m 0 c).after 5 t) = _
  rw [after0_5, out5_eq]
  funext y
  obtain ⟨e0, e1, e2, e3⟩ := emb5_coords t y
  exact val_point (grid0.coords t) _ _ _ _ _ _ _ _ y _ e0 e2 e3 (blk0_5 m c t y) (blk1_5 m c t y) (blk2_5 m c t y) (blk3_5 m c t y)

theorem flushed6_eq (c : Dev nD) (t : Fin cfg0.N) :
    (dats m 0 c).flushed 6 t = ((cfg0.win 6).blk t).view.read (Elt Ideal) (massW (V m c main_v1) (V m c main_v3) (V m c main_v5)) := by
  show (cfg0.win 6).cut (grid0.coords t) ((dats m 0 c).after 6 t) = _
  rw [after0_6, out6_eq]
  funext y
  obtain ⟨e0, e1, e2, e3⟩ := emb6_coords t y
  exact mass_point (grid0.coords t) _ _ _ _ _ _ y _ e0 e2 e3 (blk1_6 m c t y) (blk2_6 m c t y) (blk3_6 m c t y)

/-- An index of the array is in point `t`'s block iff each coordinate is in the block's range on its axis. -/
theorem mem_blk4 (t : Fin cfg0.N) (k : S4x8x720x1280.Idx) :
    k ∈ ((cfg0.win 4).blk t).view.set ↔ ∀ a : Fin 4, win0_4.index t a * S4x1x120x1280.size a ≤ (k a).val ∧ (k a).val < win0_4.index t a * S4x1x120x1280.size a + S4x1x120x1280.size a := by
  show k ∈ ((View.whole main_v6_0).slice (win0_4.rect t)).set ↔ _
  rw [View.set_slice_whole, Rect.mem_set_unit]
  exact Iff.rfl

/-- Every index of the array is in some point's block: image `k 1`, block row `k 2 / 120`. -/
theorem cover4 (k : S4x8x720x1280.Idx) : ∃ t : Fin cfg0.N, (cfg0.win 4).flush t = true ∧ k ∈ ((cfg0.win 4).blk t).view.set := by
  have h0 : (k 0).val < 4 := (k 0).isLt
  have h1 : (k 1).val < 8 := (k 1).isLt
  have h2 : (k 2).val < 720 := (k 2).isLt
  have h3 : (k 3).val < 1280 := (k 3).isLt
  obtain ⟨t, ht0, ht1⟩ := pts_onto ⟨(k 1).val, h1⟩ ⟨(k 2).val / 120, by omega⟩
  obtain ⟨f0, f1, f2, f3, f4, f5, f6, f7, f8, f9, f10, f11, f12, f13, f14, f15, f16, f17, f18, f19, f20, f21, f22, f23⟩ := idx_facts t
  have e0 : (grid0.coords t 0).val = (k 1).val := ht0
  have e1 : (grid0.coords t 1).val = (k 2).val / 120 := ht1
  refine ⟨t, flush0_4 t, ?_⟩
  rw [mem_blk4]
  intro a
  match a with
  | ⟨0, _⟩ => show win0_4.index t (0 : Fin 4) * 4 ≤ (k 0).val ∧ (k 0).val < win0_4.index t (0 : Fin 4) * 4 + 4; omega
  | ⟨1, _⟩ => show win0_4.index t (1 : Fin 4) * 1 ≤ (k 1).val ∧ (k 1).val < win0_4.index t (1 : Fin 4) * 1 + 1; omega
  | ⟨2, _⟩ => show win0_4.index t (2 : Fin 4) * 120 ≤ (k 2).val ∧ (k 2).val < win0_4.index t (2 : Fin 4) * 120 + 120; omega
  | ⟨3, _⟩ => show win0_4.index t (3 : Fin 4) * 1280 ≤ (k 3).val ∧ (k 3).val < win0_4.index t (3 : Fin 4) * 1280 + 1280; omega

/-- An index of the array is in point `t`'s block iff each coordinate is in the block's range on its axis. -/
theorem mem_blk5 (t : Fin cfg0.N) (k : S4x8x720x1280.Idx) :
    k ∈ ((cfg0.win 5).blk t).view.set ↔ ∀ a : Fin 4, win0_5.index t a * S4x1x120x1280.size a ≤ (k a).val ∧ (k a).val < win0_5.index t a * S4x1x120x1280.size a + S4x1x120x1280.size a := by
  show k ∈ ((View.whole main_v6_1).slice (win0_5.rect t)).set ↔ _
  rw [View.set_slice_whole, Rect.mem_set_unit]
  exact Iff.rfl

/-- Every index of the array is in some point's block: image `k 1`, block row `k 2 / 120`. -/
theorem cover5 (k : S4x8x720x1280.Idx) : ∃ t : Fin cfg0.N, (cfg0.win 5).flush t = true ∧ k ∈ ((cfg0.win 5).blk t).view.set := by
  have h0 : (k 0).val < 4 := (k 0).isLt
  have h1 : (k 1).val < 8 := (k 1).isLt
  have h2 : (k 2).val < 720 := (k 2).isLt
  have h3 : (k 3).val < 1280 := (k 3).isLt
  obtain ⟨t, ht0, ht1⟩ := pts_onto ⟨(k 1).val, h1⟩ ⟨(k 2).val / 120, by omega⟩
  obtain ⟨f0, f1, f2, f3, f4, f5, f6, f7, f8, f9, f10, f11, f12, f13, f14, f15, f16, f17, f18, f19, f20, f21, f22, f23⟩ := idx_facts t
  have e0 : (grid0.coords t 0).val = (k 1).val := ht0
  have e1 : (grid0.coords t 1).val = (k 2).val / 120 := ht1
  refine ⟨t, flush0_5 t, ?_⟩
  rw [mem_blk5]
  intro a
  match a with
  | ⟨0, _⟩ => show win0_5.index t (0 : Fin 4) * 4 ≤ (k 0).val ∧ (k 0).val < win0_5.index t (0 : Fin 4) * 4 + 4; omega
  | ⟨1, _⟩ => show win0_5.index t (1 : Fin 4) * 1 ≤ (k 1).val ∧ (k 1).val < win0_5.index t (1 : Fin 4) * 1 + 1; omega
  | ⟨2, _⟩ => show win0_5.index t (2 : Fin 4) * 120 ≤ (k 2).val ∧ (k 2).val < win0_5.index t (2 : Fin 4) * 120 + 120; omega
  | ⟨3, _⟩ => show win0_5.index t (3 : Fin 4) * 1280 ≤ (k 3).val ∧ (k 3).val < win0_5.index t (3 : Fin 4) * 1280 + 1280; omega

/-- An index of the array is in point `t`'s block iff each coordinate is in the block's range on its axis. -/
theorem mem_blk6 (t : Fin cfg0.N) (k : S4x8x720x1280.Idx) :
    k ∈ ((cfg0.win 6).blk t).view.set ↔ ∀ a : Fin 4, win0_6.index t a * S4x1x120x1280.size a ≤ (k a).val ∧ (k a).val < win0_6.index t a * S4x1x120x1280.size a + S4x1x120x1280.size a := by
  show k ∈ ((View.whole main_v6_2).slice (win0_6.rect t)).set ↔ _
  rw [View.set_slice_whole, Rect.mem_set_unit]
  exact Iff.rfl

/-- Every index of the array is in some point's block: image `k 1`, block row `k 2 / 120`. -/
theorem cover6 (k : S4x8x720x1280.Idx) : ∃ t : Fin cfg0.N, (cfg0.win 6).flush t = true ∧ k ∈ ((cfg0.win 6).blk t).view.set := by
  have h0 : (k 0).val < 4 := (k 0).isLt
  have h1 : (k 1).val < 8 := (k 1).isLt
  have h2 : (k 2).val < 720 := (k 2).isLt
  have h3 : (k 3).val < 1280 := (k 3).isLt
  obtain ⟨t, ht0, ht1⟩ := pts_onto ⟨(k 1).val, h1⟩ ⟨(k 2).val / 120, by omega⟩
  obtain ⟨f0, f1, f2, f3, f4, f5, f6, f7, f8, f9, f10, f11, f12, f13, f14, f15, f16, f17, f18, f19, f20, f21, f22, f23⟩ := idx_facts t
  have e0 : (grid0.coords t 0).val = (k 1).val := ht0
  have e1 : (grid0.coords t 1).val = (k 2).val / 120 := ht1
  refine ⟨t, flush0_6 t, ?_⟩
  rw [mem_blk6]
  intro a
  match a with
  | ⟨0, _⟩ => show win0_6.index t (0 : Fin 4) * 4 ≤ (k 0).val ∧ (k 0).val < win0_6.index t (0 : Fin 4) * 4 + 4; omega
  | ⟨1, _⟩ => show win0_6.index t (1 : Fin 4) * 1 ≤ (k 1).val ∧ (k 1).val < win0_6.index t (1 : Fin 4) * 1 + 1; omega
  | ⟨2, _⟩ => show win0_6.index t (2 : Fin 4) * 120 ≤ (k 2).val ∧ (k 2).val < win0_6.index t (2 : Fin 4) * 120 + 120; omega
  | ⟨3, _⟩ => show win0_6.index t (3 : Fin 4) * 1280 ≤ (k 3).val ∧ (k 3).val < win0_6.index t (3 : Fin 4) * 1280 + 1280; omega

/-- THE THREE ARRAYS after the region: the target cells, the values and the masses of every pixel and neighbour. -/
theorem final4 (c : Dev nD) : (dats m 0 c).arrAt 4 cfg0.N = tgtW (V m c main_v3) (V m c main_v5) :=
  (dats m 0 c).arrAt_eq_of_cover 4 _ (fun t _ => flushed4_eq m c t) cover4
theorem final5 (c : Dev nD) : (dats m 0 c).arrAt 5 cfg0.N = valW (V m c main_v0) (V m c main_v1) (V m c main_v3) (V m c main_v5) :=
  (dats m 0 c).arrAt_eq_of_cover 5 _ (fun t _ => flushed5_eq m c t) cover5
theorem final6 (c : Dev nD) : (dats m 0 c).arrAt 6 cfg0.N = massW (V m c main_v1) (V m c main_v3) (V m c main_v5) :=
  (dats m 0 c).arrAt_eq_of_cover 6 _ (fun t _ => flushed6_eq m c t) cover6

end Cert.KernelIdeal.Whole

end
-- ==== Proof.LibVecScatter.lean ====
/-
  Values added into a vector at one index per edge, read at an entry.

  `x.at[idx].add(u)` for a vector `x : [N]`, one index per edge `idx : [E, 1]` and one value per edge `u : [E]`:
  over the extended reals entry `n` of the result is the operand's entry plus the sum, over the edges whose index
  read as a signed integer IS `n`, of the edge's value. An edge whose index is negative or at least `N`
  contributes to no entry. (Counting the edges into each node is the case of a zero operand and all values one.)
-/
import Idealize.ShloMosaic.Lib.ValueIdx
import Idealize.ShloMosaic.Lib.Affine

noncomputable section

open scoped BigOperators

namespace Idealize.ShloMosaic.VecScatter

open Idealize.ShloMosaic Idealize.ShloMosaic.ValueIdx

/-- The dimension numbers of `x.at[idx].add(u)` for a vector `x : [N]`, one index per edge and one value per edge. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- A sum over the indices of a vector of length `n`, coordinate by coordinate. -/
theorem sum_vecIdx {M : Type*} [AddCommMonoid M] {n : Nat} (f : (⟨1, ![n]⟩ : Shape).Idx → M) :
    ∑ j, f j = ∑ i : Fin n, f (ix1 i) :=
  Fintype.sum_equiv
    { toFun := fun j => j 0, invFun := fun i => ix1 i, left_inv := fun j => (eq_ix1 j).symm, right_inv := fun _ => rfl }
    f (fun i => f (ix1 i)) fun j => congrArg f (eq_ix1 j)

/-- Where edge `e`'s value lands: entry `t` when the edge's index read signed is an entry `t` of the vector;
    nowhere when it is negative or at least `N`. -/
theorem vecScatter_resultIdx? {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx
      = if h : 0 ≤ (idx (ix2 e (0 : Fin 1))).toInt ∧ (idx (ix2 e (0 : Fin 1))).toInt < N then
          some (ix1 ⟨(idx (ix2 e (0 : Fin 1))).toInt.toNat, by omega⟩)
        else none := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from
      fun h => (mem_sKept _ _).mp h (List.mem_singleton.mpr rfl))]
  unfold ScatterDims.resultIdx?
  by_cases h : 0 ≤ (idx (ix2 e (0 : Fin 1))).toInt ∧ (idx (ix2 e (0 : Fin 1))).toInt < N
  · have hall : ∀ a : Fin 1, 0 ≤ (vecScatter N E wf).start (ix1 e) idx a + (vecScatter N E wf).window (ix1 e) a
        ∧ (vecScatter N E wf).start (ix1 e) idx a + (vecScatter N E wf).window (ix1 e) a
          < ((⟨1, ![N]⟩ : Shape).size a : ℤ) := by
      intro a
      match a with
      | ⟨0, _⟩ =>
        show 0 ≤ (vecScatter N E wf).start (ix1 e) idx 0 + (vecScatter N E wf).window (ix1 e) 0
          ∧ (vecScatter N E wf).start (ix1 e) idx 0 + (vecScatter N E wf).window (ix1 e) 0 < ((⟨1, ![N]⟩ : Shape).size 0 : ℤ)
        rw [hs0, hw0]
        refine ⟨by omega, ?_⟩
        show (idx (ix2 e (0 : Fin 1))).toInt + ((0 : ℕ) : ℤ) < (N : ℤ)
        omega
    rw [dif_pos hall, dif_pos h]
    refine congrArg some (funext fun a => Fin.ext ?_)
    match a with
    | ⟨0, _⟩ =>
      show ((vecScatter N E wf).start (ix1 e) idx 0 + (vecScatter N E wf).window (ix1 e) 0).toNat = _
      rw [hs0, hw0]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `n` of a vector after values are added into it, over the extended reals: the entry before, plus the sum
    over the edges whose index read signed is `n` of the edge's value. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n)
        + ∑ e ∈ Finset.univ.filter (fun e : Fin E => (idx (ix2 e (0 : Fin 1))).toInt = (n.val : ℤ)), upd (ix1 e) := by
  unfold Ideal.hostScatterAdd
  refine congrArg (x (ix1 n) + ·) ?_
  rw [Finset.sum_filter, Finset.sum_filter, sum_vecIdx]
  refine Finset.sum_congr rfl fun e _ => ?_
  have hiff : ((vecScatter N E wf).resultIdx? (ix1 e) idx = some (ix1 n))
      ↔ (idx (ix2 e (0 : Fin 1))).toInt = (n.val : ℤ) := by
    rw [vecScatter_resultIdx?]
    by_cases h : 0 ≤ (idx (ix2 e (0 : Fin 1))).toInt ∧ (idx (ix2 e (0 : Fin 1))).toInt < N
    · rw [dif_pos h, Option.some_inj]
      constructor
      · intro h1
        have h2 : (idx (ix2 e (0 : Fin 1))).toInt.toNat = n.val := congrArg Fin.val (congrFun h1 0)
        omega
      · intro h1
        refine congrArg ix1 (Fin.ext ?_)
        show (idx (ix2 e (0 : Fin 1))).toInt.toNat = n.val
        omega
    · rw [dif_neg h]
      constructor
      · intro hh; exact absurd hh (by simp)
      · intro h1
        exfalso; apply h
        have := n.isLt
        omega
  by_cases ht : (idx (ix2 e (0 : Fin 1))).toInt = (n.val : ℤ)
  · rw [if_pos ht, if_pos (hiff.mpr ht)]
  · rw [if_neg ht, if_neg (fun hh => ht (hiff.mp hh))]

/-- The same for the host's accumulating scatter at the ideal instance, which is that sum. -/
theorem host_scatterAdd_vec_apply {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w)
    (upd : FVec Ideal ⟨1, ![E]⟩ .f32) (n : Fin N) :
    Host.scatterAdd (vecScatter N E wf) x idx upd (ix1 n)
      = x (ix1 n)
        + ∑ e ∈ Finset.univ.filter (fun e : Fin E => (idx (ix2 e (0 : Fin 1))).toInt = (n.val : ℤ)), upd (ix1 e) :=
  scatterAdd_vec_apply wf x idx upd n

end Idealize.ShloMosaic.VecScatter

end
-- ==== Proof.LibFlatScatter.lean ====
/-
  A scatter-add of a flattened array, and a sum over a rank-4 index set cut along its leading axis.

  `zeros.at[idx.reshape(-1)].add(u.reshape(-1))`: the indices and the values are arrays of ONE shape `T`, flattened
  to vectors of length `E` before the scatter. Over the extended reals entry `n` of the result is the operand's entry
  plus the sum, over ALL indices `k` of `T`, of `u k` where the (normalised) index word at `k` read signed is `n`:
  the flattening is a bijection of index sets and a finite sum does not see it. When `T = [g, a, b, c]` that sum is
  the sum over the leading coordinate of the sums over `[a, 1, b, c]`: one scatter of `g` stacked arrays adds up what
  `g` separate scatters of the slices give.
-/
import proofs.«126488_j84619445666296_1_alg».proof.Proof.LibVecScatter
import Idealize.ShloMosaic.Lib.Pipeline.Value

noncomputable section

open scoped BigOperators

namespace Idealize.ShloMosaic.FlatScatter

open Idealize.ShloMosaic Idealize.ShloMosaic.ValueIdx Idealize.ShloMosaic.VecScatter

/-- Entry `n` of a vector after values are added into it at one index per edge, the indices given as a vector
    `[E]` spread to the column `[E, 1]`: the entry before plus the sum over all edges of the edge's value where
    the edge's index read signed is `n`. -/
theorem host_scatterAdd_column_apply {N E w : Nat}
    (wf : ScatterDims.WF ⟨1, ![N]⟩ ⟨2, ![E, 1]⟩ ⟨1, ![E]⟩ [] [0] [0] 1)
    (x : FVec Ideal ⟨1, ![N]⟩ .f32) (idx : IVec ⟨1, ![E]⟩ w)
    (hb : (⟨1, ![E]⟩ : Shape).BroadcastsInDim ⟨2, ![E, 1]⟩ ![0])
    (upd : FVec Ideal ⟨1, ![E]⟩ .f32) (n : Fin N) :
    Host.scatterAdd (vecScatter N E wf) x (broadcastInDim ⟨2, ![E, 1]⟩ ![0] hb idx) upd (ix1 n)
      = x (ix1 n) + ∑ j : (⟨1, ![E]⟩ : Shape).Idx, if (idx j).toInt = (n.val : ℤ) then upd j else 0 := by
  rw [host_scatterAdd_vec_apply, Finset.sum_filter, sum_vecIdx]
  refine congrArg (x (ix1 n) + ·) (Finset.sum_congr rfl fun e _ => ?_)
  have hcol : broadcastInDim ⟨2, ![E, 1]⟩ ![0] hb idx (ix2 e (0 : Fin 1)) = idx (ix1 e) :=
    broadcastInDim_apply _ hb idx (ix2 e (0 : Fin 1)) (ix1 e) (fun a => by
      match a with
      | ⟨0, _⟩ =>
        show e.val = if E = 1 then 0 else e.val
        have := e.isLt
        split <;> omega)
  rw [hcol]

/-- A sum over the indices of one shape, each term read through the row-major re-indexing onto another shape of as
    many elements, is the sum over the other shape's indices. -/
theorem sum_reshape {M : Type*} [AddCommMonoid M] {s s' : Shape} (h : s'.numel = s.numel) (f : s.Idx → M) :
    ∑ j : s'.Idx, f (Shape.reshapeEquiv h j) = ∑ k : s.Idx, f k :=
  Equiv.sum_comp (Shape.reshapeEquiv h) f

/-- An index of `[g, a, b, c]` is a leading coordinate and an index of `[a, 1, b, c]`. -/
def leadEquiv {g a b c : Nat} : (⟨4, ![g, a, b, c]⟩ : Shape).Idx ≃ Fin g × (⟨4, ![a, 1, b, c]⟩ : Shape).Idx where
  toFun k := (k 0, ix4 (k 1) (0 : Fin 1) (k 2) (k 3))
  invFun p := ix4 p.1 (p.2 0) (p.2 2) (p.2 3)
  left_inv k := (eq_ix4 k).symm
  right_inv p := by
    refine Prod.ext rfl (funext fun d => Fin.ext ?_)
    match d with
    | ⟨0, _⟩ => rfl
    | ⟨1, _⟩ =>
      have h1 : (p.2 1).val < 1 := (p.2 1).isLt
      show 0 = (p.2 1).val
      omega
    | ⟨2, _⟩ => rfl
    | ⟨3, _⟩ => rfl

/-- A sum over the indices of `[g, a, b, c]`, leading coordinate first. -/
theorem sum_lead {M : Type*} [AddCommMonoid M] {g a b c : Nat} (f : (⟨4, ![g, a, b, c]⟩ : Shape).Idx → M) :
    ∑ k, f k = ∑ l : Fin g, ∑ q : (⟨4, ![a, 1, b, c]⟩ : Shape).Idx, f (ix4 l (q 0) (q 2) (q 3)) := by
  rw [← Fintype.sum_prod_type']
  exact Fintype.sum_equiv leadEquiv f (fun p => f (ix4 p.1 (p.2 0) (p.2 2) (p.2 3)))
    fun k => congrArg f (eq_ix4 k)

end Idealize.ShloMosaic.FlatScatter

end
-- ==== Proof.KerTail.lean ====
/-
  The kernel's @main around the region: the staged arrays before it, the two results after it.

  Before the region @main drops the unit channel of the intensities and of the counts and slices the flow's two channels
  apart (channel 1, the row shifts, and channel 0, the column shifts); those four `[8, 720, 1280]` arrays are what the
  region's input windows stage. After the region it flattens the three `[4, 8, 720, 1280]` output arrays — target cells,
  values, masses — and adds the flattened values, and the flattened masses, into zero vectors of `7372800` cells at the
  flattened targets: one scatter each for ALL pixels and neighbours. Cell `n` of such a scatter is the sum, over every
  pixel and neighbour, of the update whose target is `n` (`scat_apply`). The second result is the landed masses viewed
  as images; the first the landed values over the landed masses plus the guard.
-/
import proofs.«126488_j84619445666296_1_alg».proof.Proof.FrameKernelIdeal
import proofs.«126488_j84619445666296_1_alg».proof.Proof.Splat
import proofs.«126488_j84619445666296_1_alg».proof.Proof.LibFlatScatter
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Tail

open Idealize.ShloMosaic Idealize.ShloMosaic.TcCoe Idealize.ShloMosaic.ValueIdx Idealize.SL.Sem Idealize.ShloMosaic.StableHlo
open Cert.KernelIdeal Cert.KernelIdeal.Gen Cert.KernelIdeal.GenP
open Idealize.ShloMosaic.FlatScatter Idealize.ShloMosaic.VecScatter
open scoped BigOperators

variable (m : (ℓ : Loc nD τ sig) → Buf (Elt Ideal) ℓ)

/-- The scatter of @main's tail: the stacked target cells flattened, brought into range as a subscript is, spread to a
    column, and the stacked updates flattened and added into a zero vector at them. -/
def scat (I : S4x8x720x1280.Idx → BitVec 32) (U : S4x8x720x1280.Idx → EReal) : S7372800.Idx → EReal :=
  Host.scatterAdd (F := Ideal) scatter_S7372800_S29491200x1_S29491200_n_0_0_1
    (broadcastInDim S7372800 ![] bcast_S_S7372800 (constant (F := Ideal) S_ .f32 0x00000000#32))
    (broadcastInDim S29491200x1 ![0] bcast_S29491200_S29491200x1_0
      (select (cmpi .slt (shapeCast S29491200 I shapeCasts_S4x8x720x1280_S29491200)
          (broadcastInDim S29491200 ![] bcast_S_S29491200 (constantI S_ 32 0#32)))
        (addi (shapeCast S29491200 I shapeCasts_S4x8x720x1280_S29491200)
          (broadcastInDim S29491200 ![] bcast_S_S29491200 (constantI S_ 32 7372800#32)))
        (shapeCast S29491200 I shapeCasts_S4x8x720x1280_S29491200)))
    (shapeCast S29491200 U shapeCasts_S4x8x720x1280_S29491200)

/-- Cell `n` of it: the sum, over every pixel and neighbour, of the update whose target cell is `n`. -/
theorem scat_apply (I : S4x8x720x1280.Idx → BitVec 32) (U : S4x8x720x1280.Idx → EReal) (n : Fin 7372800) :
    scat I U (ix1 n) = Splat.lit0 + ∑ k, if (Splat.wrap (I k)).toInt = (n.val : ℤ) then U k else 0 := by
  unfold scat
  refine (host_scatterAdd_column_apply scatter_S7372800_S29491200x1_S29491200_n_0_0_1_wf _ _
    bcast_S29491200_S29491200x1_0 _ n).trans ?_
  refine congrArg₂ (· + ·) rfl ?_
  exact sum_reshape shapeCasts_S4x8x720x1280_S29491200
    (fun k => if (Splat.wrap (I k)).toInt = (n.val : ℤ) then U k else 0)

/-- After the region the three output buffers hold the pipeline's arrays. -/
theorem W4 (c : Dev nD) : Pipeline.withArrays (cfgs 0).spec c (V0 m c) (fun w => (dats m 0 c).arrAt w (cfgs 0).N)
    (Proc.devRef .tc main_v6_0) = (dats m 0 c).arrAt 4 cfg0.N :=
  Pipeline.withArrays_arr spec0 launch0.win.arr_inj c _ _ 4
theorem W5 (c : Dev nD) : Pipeline.withArrays (cfgs 0).spec c (V0 m c) (fun w => (dats m 0 c).arrAt w (cfgs 0).N)
    (Proc.devRef .tc main_v6_1) = (dats m 0 c).arrAt 5 cfg0.N :=
  Pipeline.withArrays_arr spec0 launch0.win.arr_inj c _ _ 5
theorem W6 (c : Dev nD) : Pipeline.withArrays (cfgs 0).spec c (V0 m c) (fun w => (dats m 0 c).arrAt w (cfgs 0).N)
    (Proc.devRef .tc main_v6_2) = (dats m 0 c).arrAt 6 cfg0.N :=
  Pipeline.withArrays_arr spec0 launch0.win.arr_inj c _ _ 6

set_option maxHeartbeats 4000000 in
/-- The second result of @main: the masses landed in each cell. -/
theorem tail27 (c : Dev nD) :
    Pipeline.afterTail₀ cfgs (dats m) 0 (V0 m) [hostOps1] c main_v27
      = shapeCast S8x1x720x1280 (scat ((dats m 0 c).arrAt 4 cfg0.N) ((dats m 0 c).arrAt 6 cfg0.N))
          shapeCasts_S7372800_S8x1x720x1280 := by
  unfold Pipeline.afterTail₀
  show StableHlo.after hostOps1 _ (Proc.devRef .tc main_v27) = _
  after_results
  rw [W4 m c, W6 m c]
  rfl

set_option maxHeartbeats 4000000 in
/-- The first result of @main: the values landed in each cell over the masses landed there plus the guard. -/
theorem tail30 (c : Dev nD) :
    Pipeline.afterTail₀ cfgs (dats m) 0 (V0 m) [hostOps1] c main_v30
      = Host.divf (F := Ideal)
          (shapeCast S8x1x720x1280 (scat ((dats m 0 c).arrAt 4 cfg0.N) ((dats m 0 c).arrAt 5 cfg0.N))
            shapeCasts_S7372800_S8x1x720x1280)
          (addf (shapeCast S8x1x720x1280 (scat ((dats m 0 c).arrAt 4 cfg0.N) ((dats m 0 c).arrAt 6 cfg0.N))
              shapeCasts_S7372800_S8x1x720x1280)
            (broadcastInDim S8x1x720x1280 ![] bcast_S_S8x1x720x1280 (constant (F := Ideal) S_ .f32 0x358637BD#32))) := by
  unfold Pipeline.afterTail₀
  show StableHlo.after hostOps1 _ (Proc.devRef .tc main_v30) = _
  after_results
  rw [W4 m c, W5 m c, W6 m c]
  rfl

/-- The staged arrays, from @main's lines before the region: the unit channel of the intensities and of the counts
    dropped, the flow's channel 1 (the row shifts) and channel 0 (the column shifts) sliced out and their unit channel
    dropped. -/
theorem V_main_v0 (c : Dev nD) : (V m c main_v0 : S8x720x1280.Idx → EReal)
    = shapeCast S8x720x1280 (m ((c : Thread nD τ).loc main_arg0)) shapeCasts_S8x1x720x1280_S8x720x1280 := by
  show StableHlo.after hostOps0 (fun b => m (c, b)) (Proc.devRef .tc main_v0) = _
  after_results
  rfl
theorem V_main_v1 (c : Dev nD) : (V m c main_v1 : S8x720x1280.Idx → EReal)
    = shapeCast S8x720x1280 (m ((c : Thread nD τ).loc main_arg1)) shapeCasts_S8x1x720x1280_S8x720x1280 := by
  show StableHlo.after hostOps0 (fun b => m (c, b)) (Proc.devRef .tc main_v1) = _
  after_results
  rfl
theorem V_main_v3 (c : Dev nD) : (V m c main_v3 : S8x720x1280.Idx → EReal)
    = shapeCast S8x720x1280 (extractStridedSlice S8x1x720x1280 ![0, 1, 0, 0] (m ((c : Thread nD τ).loc main_arg2))
        slices_S8x2x720x1280_S8x1x720x1280_0_1_0_0) shapeCasts_S8x1x720x1280_S8x720x1280 := by
  show StableHlo.after hostOps0 (fun b => m (c, b)) (Proc.devRef .tc main_v3) = _
  after_results
  rfl
theorem V_main_v5 (c : Dev nD) : (V m c main_v5 : S8x720x1280.Idx → EReal)
    = shapeCast S8x720x1280 (extractStridedSlice S8x1x720x1280 ![0, 0, 0, 0] (m ((c : Thread nD τ).loc main_arg2))
        slices_S8x2x720x1280_S8x1x720x1280_0_0_0_0) shapeCasts_S8x1x720x1280_S8x720x1280 := by
  show StableHlo.after hostOps0 (fun b => m (c, b)) (Proc.devRef .tc main_v5) = _
  after_results
  rfl

/-- An `[8, 1, 720, 1280]` array with its unit channel dropped reads, at `(n, h, w)`, the array at `(n, 0, h, w)`. -/
theorem cast_drop_channel {α : Type} (X : S8x1x720x1280.Idx → α) (h : S8x1x720x1280.ShapeCasts S8x720x1280)
    (n : Fin 8) (r : Fin 720) (w : Fin 1280) :
    shapeCast S8x720x1280 X h (ix3 n r w) = X (ix4 n (0 : Fin 1) r w) :=
  shapeCast_apply X h _ _ (by
    rw [Shape.rowMajor_val_four, Shape.rowMajor_val_three]
    show ((n.val * 1 + 0) * 720 + r.val) * 1280 + w.val = (n.val * 720 + r.val) * 1280 + w.val
    simp)

/-- Channel `ch` of the flow, sliced out, reads at `(n, 0, h, w)` the flow at `(n, ch, h, w)`. -/
theorem slice_ch1 {α : Type} (X : S8x2x720x1280.Idx → α) (h : S8x2x720x1280.Slices ![0, 1, 0, 0] S8x1x720x1280)
    (n : Fin 8) (r : Fin 720) (w : Fin 1280) :
    extractStridedSlice S8x1x720x1280 ![0, 1, 0, 0] X h (ix4 n (0 : Fin 1) r w) = X (ix4 n (1 : Fin 2) r w) :=
  extractStridedSlice_apply _ X h _ _ (fun a => match a with
    | ⟨0, _⟩ => by show n.val = 0 + n.val; omega
    | ⟨1, _⟩ => by show 1 = 1 + 0; omega
    | ⟨2, _⟩ => by show r.val = 0 + r.val; omega
    | ⟨3, _⟩ => by show w.val = 0 + w.val; omega)
theorem slice_ch0 {α : Type} (X : S8x2x720x1280.Idx → α) (h : S8x2x720x1280.Slices ![0, 0, 0, 0] S8x1x720x1280)
    (n : Fin 8) (r : Fin 720) (w : Fin 1280) :
    extractStridedSlice S8x1x720x1280 ![0, 0, 0, 0] X h (ix4 n (0 : Fin 1) r w) = X (ix4 n (0 : Fin 2) r w) :=
  extractStridedSlice_apply _ X h _ _ (fun a => match a with
    | ⟨0, _⟩ => by show n.val = 0 + n.val; omega
    | ⟨1, _⟩ => by show 0 = 0 + 0; omega
    | ⟨2, _⟩ => by show r.val = 0 + r.val; omega
    | ⟨3, _⟩ => by show w.val = 0 + w.val; omega)

end Cert.KernelIdeal.Tail

end
-- ==== Proof.SplatArrays.lean ====
/-
  Forward warping by splatting, over whole images.

  From the argument arrays — intensities and counts `[8, 1, 720, 1280]`, flow `[8, 2, 720, 1280]` with the row shift in
  channel 1 and the column shift in channel 0 — every pixel `q = (n, 0, h, w)` sends to each of its four neighbours
  `l` a value and a mass at a target cell (`Splat.value`, `Splat.mass`, `Splat.target`). What LANDS in cell `n` from
  neighbour `l` is the sum, over the pixels whose target is `n`, of what they send. The warped mass of a cell is what
  lands there from the four neighbours; the warped image is the value landed over the mass landed plus a guard.
-/
import proofs.«126488_j84619445666296_1_alg».proof.Proof.Splat
import Idealize.ShloMosaic.Lib.Pipeline.Value

noncomputable section

open scoped BigOperators

namespace Splat

open Idealize.ShloMosaic Idealize.ShloMosaic.ValueIdx

/-- The shape of the images and of the flow. -/
abbrev SImg : Shape := ⟨4, ![8, 1, 720, 1280]⟩
abbrev SFlo : Shape := ⟨4, ![8, 2, 720, 1280]⟩

/-- The row shift and the column shift of pixel `q`. -/
def xAt (flo : SFlo.Idx → EReal) (q : SImg.Idx) : EReal := flo (ix4 (q 0) (1 : Fin 2) (q 2) (q 3))
def yAt (flo : SFlo.Idx → EReal) (q : SImg.Idx) : EReal := flo (ix4 (q 0) (0 : Fin 2) (q 2) (q 3))

/-- Where pixel `q` sends its contribution to neighbour `l`, the value and the mass it sends. -/
def tgtA (flo : SFlo.Idx → EReal) (l : Fin 4) (q : SImg.Idx) : BitVec 32 :=
  target (BitVec.ofNat 32 (q 0).val) (cx l (xAt flo q)) (cy l (yAt flo q)) (BitVec.ofNat 32 (q 2).val)
    (BitVec.ofNat 32 (q 3).val)
def valA (img cnt : SImg.Idx → EReal) (flo : SFlo.Idx → EReal) (l : Fin 4) (q : SImg.Idx) : EReal :=
  value (img q) (cnt q) (xAt flo q) (yAt flo q) (cx l (xAt flo q)) (cy l (yAt flo q)) (BitVec.ofNat 32 (q 2).val)
    (BitVec.ofNat 32 (q 3).val)
def massA (cnt : SImg.Idx → EReal) (flo : SFlo.Idx → EReal) (l : Fin 4) (q : SImg.Idx) : EReal :=
  mass (cnt q) (xAt flo q) (yAt flo q) (cx l (xAt flo q)) (cy l (yAt flo q)) (BitVec.ofNat 32 (q 2).val)
    (BitVec.ofNat 32 (q 3).val)

/-- What lands in cell `n`: the sum of `v q` over the pixels `q` whose target, brought into range, is `n`. -/
def landed (tg : SImg.Idx → BitVec 32) (v : SImg.Idx → EReal) (n : ℕ) : EReal :=
  ∑ q, if (wrap (tg q)).toInt = (n : ℤ) then v q else 0

/-- The value and the mass landed in cell `n` from the four neighbours, on top of the zero the accumulators start from. -/
def num (img cnt : SImg.Idx → EReal) (flo : SFlo.Idx → EReal) (n : ℕ) : EReal :=
  lit0 + ∑ l : Fin 4, landed (tgtA flo l) (valA img cnt flo l) n
def den (cnt : SImg.Idx → EReal) (flo : SFlo.Idx → EReal) (n : ℕ) : EReal :=
  lit0 + ∑ l : Fin 4, landed (tgtA flo l) (massA cnt flo l) n

/-- The guard added to the mass before dividing: the float word of `1e-6`. -/
abbrev guard : EReal := Ideal.ofBits .f32 0x358637BD#32

/-- The warped image at cell `n`. -/
def warped (img cnt : SImg.Idx → EReal) (flo : SFlo.Idx → EReal) (n : ℕ) : EReal :=
  Ideal.div (num img cnt flo n) (den cnt flo n + guard)

/-- The flat position of a cell among the `7372800` cells of the eight images, row-major. -/
def cellOf (i : SImg.Idx) : ℕ := (SImg.rowMajor i).val

/-- The images viewed as one vector of cells: cell `i` of the images is entry `cellOf i` of the vector. -/
theorem reshape_cell (h : SImg.numel = (⟨1, ![7372800]⟩ : Shape).numel) (i : SImg.Idx) :
    ((Shape.reshapeEquiv h i) 0).val = cellOf i := by
  have e := Shape.rowMajor_reshapeEquiv h i
  rw [Shape.rowMajor_val_one] at e
  exact e

/-- A pixel of an image of one channel is its image, row and column. -/
theorem ix4_self (q : SImg.Idx) : ix4 (q 0) (0 : Fin 1) (q 2) (q 3) = q := by
  funext d; apply Fin.ext
  match d with
  | ⟨0, _⟩ => rfl
  | ⟨1, _⟩ =>
    have h1 : (q 1).val < 1 := (q 1).isLt
    show 0 = (q 1).val
    omega
  | ⟨2, _⟩ => rfl
  | ⟨3, _⟩ => rfl

end Splat

end
-- ==== Proof.KerValue.lean ====
/-
  The kernel's two results as functions of its arguments.

  The region leaves the target cells, values and masses of every pixel and neighbour, computed from the staged arrays,
  which are the argument arrays re-laid (`tgtW_at`, `valW_at`, `massW_at`: entry `(l, n, h, w)` is what pixel
  `(n, 0, h, w)` sends to neighbour `l`). @main's tail adds them into the cells: a sum over all pixels AND neighbours,
  which is the sum over the neighbours of the sums over the pixels. So cell `i` of the second result is the mass landed
  there from the four neighbours (`Splat.den`) and of the first the warped intensity (`Splat.warped`).
-/
import proofs.«126488_j84619445666296_1_alg».proof.Proof.KerWhole
import proofs.«126488_j84619445666296_1_alg».proof.Proof.KerTail
import proofs.«126488_j84619445666296_1_alg».proof.Proof.SplatArrays

set_option maxRecDepth 16384

noncomputable section

namespace Cert.KernelIdeal.Warp

open Idealize.ShloMosaic Idealize.ShloMosaic.TcCoe Idealize.ShloMosaic.ValueIdx Idealize.SL.Sem
open Cert.KernelIdeal Cert.KernelIdeal.Gen Cert.KernelIdeal.GenP Cert.KernelIdeal.Block Cert.KernelIdeal.Whole
open Cert.KernelIdeal.Tail Idealize.ShloMosaic.FlatScatter
open scoped BigOperators

variable (m : (ℓ : Loc nD τ sig) → Buf (Elt Ideal) ℓ)

/-- The argument arrays as launched. -/
abbrev img (c : Dev nD) : Splat.SImg.Idx → EReal := m ((c : Thread nD τ).loc main_arg0)
abbrev cnt (c : Dev nD) : Splat.SImg.Idx → EReal := m ((c : Thread nD τ).loc main_arg1)
abbrev flo (c : Dev nD) : Splat.SFlo.Idx → EReal := m ((c : Thread nD τ).loc main_arg2)

/-- The staged arrays read at a pixel. -/
theorem staged0 (c : Dev nD) (n : Fin 8) (r : Fin 720) (w : Fin 1280) :
    V m c main_v0 (ix3 n r w) = img m c (ix4 n (0 : Fin 1) r w) := by
  rw [V_main_v0, cast_drop_channel]
theorem staged1 (c : Dev nD) (n : Fin 8) (r : Fin 720) (w : Fin 1280) :
    V m c main_v1 (ix3 n r w) = cnt m c (ix4 n (0 : Fin 1) r w) := by
  rw [V_main_v1, cast_drop_channel]
theorem staged2 (c : Dev nD) (n : Fin 8) (r : Fin 720) (w : Fin 1280) :
    V m c main_v3 (ix3 n r w) = flo m c (ix4 n (1 : Fin 2) r w) := by
  rw [V_main_v3, cast_drop_channel, slice_ch1]
theorem staged3 (c : Dev nD) (n : Fin 8) (r : Fin 720) (w : Fin 1280) :
    V m c main_v5 (ix3 n r w) = flo m c (ix4 n (0 : Fin 2) r w) := by
  rw [V_main_v5, cast_drop_channel, slice_ch0]

/-- Entry `(l, n, h, w)` of the region's arrays is what pixel `(n, 0, h, w)` sends to neighbour `l`. -/
theorem tgtW_at (c : Dev nD) (l : Fin 4) (q : Splat.SImg.Idx) :
    tgtW (V m c main_v3) (V m c main_v5) (ix4 l (q 0) (q 2) (q 3)) = Splat.tgtA (flo m c) l q := by
  obtain ⟨n, u, r, w, rfl⟩ : ∃ (n : Fin 8) (u : Fin 1) (r : Fin 720) (w : Fin 1280), q = ix4 n u r w :=
    ⟨q 0, q 1, q 2, q 3, eq_ix4 q⟩
  obtain rfl : u = 0 := Subsingleton.elim _ _
  show Splat.target (BitVec.ofNat 32 n.val) (Splat.cx l (V m c main_v3 (ix3 n r w)))
      (Splat.cy l (V m c main_v5 (ix3 n r w))) (BitVec.ofNat 32 r.val) (BitVec.ofNat 32 w.val) = _
  rw [staged2, staged3]
  rfl
theorem valW_at (c : Dev nD) (l : Fin 4) (q : Splat.SImg.Idx) :
    valW (V m c main_v0) (V m c main_v1) (V m c main_v3) (V m c main_v5) (ix4 l (q 0) (q 2) (q 3))
      = Splat.valA (img m c) (cnt m c) (flo m c) l q := by
  obtain ⟨n, u, r, w, rfl⟩ : ∃ (n : Fin 8) (u : Fin 1) (r : Fin 720) (w : Fin 1280), q = ix4 n u r w :=
    ⟨q 0, q 1, q 2, q 3, eq_ix4 q⟩
  obtain rfl : u = 0 := Subsingleton.elim _ _
  show Splat.value (V m c main_v0 (ix3 n r w)) (V m c main_v1 (ix3 n r w))
      (V m c main_v3 (ix3 n r w)) (V m c main_v5 (ix3 n r w))
      (Splat.cx l (V m c main_v3 (ix3 n r w))) (Splat.cy l (V m c main_v5 (ix3 n r w)))
      (BitVec.ofNat 32 r.val) (BitVec.ofNat 32 w.val) = _
  rw [staged0, staged1, staged2, staged3]
  rfl
theorem massW_at (c : Dev nD) (l : Fin 4) (q : Splat.SImg.Idx) :
    massW (V m c main_v1) (V m c main_v3) (V m c main_v5) (ix4 l (q 0) (q 2) (q 3))
      = Splat.massA (cnt m c) (flo m c) l q := by
  obtain ⟨n, u, r, w, rfl⟩ : ∃ (n : Fin 8) (u : Fin 1) (r : Fin 720) (w : Fin 1280), q = ix4 n u r w :=
    ⟨q 0, q 1, q 2, q 3, eq_ix4 q⟩
  obtain rfl : u = 0 := Subsingleton.elim _ _
  show Splat.mass (V m c main_v1 (ix3 n r w))
      (V m c main_v3 (ix3 n r w)) (V m c main_v5 (ix3 n r w))
      (Splat.cx l (V m c main_v3 (ix3 n r w))) (Splat.cy l (V m c main_v5 (ix3 n r w)))
      (BitVec.ofNat 32 r.val) (BitVec.ofNat 32 w.val) = _
  rw [staged1, staged2, staged3]
  rfl

/-- One scatter of all pixels and neighbours, viewed as images: cell `i` holds what lands there from the four neighbours. -/
theorem scat_landed (c : Dev nD) (U : S4x8x720x1280.Idx → EReal) (u : Fin 4 → Splat.SImg.Idx → EReal)
    (hU : ∀ l q, U (ix4 l (q 0) (q 2) (q 3)) = u l q) (i : S8x1x720x1280.Idx) :
    shapeCast S8x1x720x1280 (scat (tgtW (V m c main_v3) (V m c main_v5)) U) shapeCasts_S7372800_S8x1x720x1280 i
      = Splat.lit0 + ∑ l : Fin 4, Splat.landed (Splat.tgtA (flo m c) l) (u l) (Splat.cellOf i) := by
  obtain ⟨n, hn⟩ : ∃ n : Fin 7372800, Shape.reshapeEquiv shapeCasts_S7372800_S8x1x720x1280 i = ix1 n := ⟨_, eq_ix1 _⟩
  have hcell : n.val = Splat.cellOf i := by
    have e := Splat.reshape_cell shapeCasts_S7372800_S8x1x720x1280 i
    rw [hn] at e
    exact e
  show scat _ U (Shape.reshapeEquiv shapeCasts_S7372800_S8x1x720x1280 i) = _
  rw [hn, scat_apply, sum_lead, hcell]
  refine congrArg (Splat.lit0 + ·) (Finset.sum_congr rfl fun l _ => ?_)
  unfold Splat.landed
  refine Finset.sum_congr rfl fun q _ => ?_
  rw [tgtW_at, hU]

/-- The host's quotient of two arrays, at an index. -/
theorem hostDivf_apply {s : Shape} (a b : FVec Ideal s .f32) (i : s.Idx) : Host.divf a b i = Ideal.div (a i) (b i) := rfl

/-- The second result at a cell. -/
theorem res27_apply (c : Dev nD) (i : S8x1x720x1280.Idx) :
    Pipeline.afterTail₀ cfgs (dats m) 0 (V0 m) [hostOps1] c main_v27 i
      = Splat.den (cnt m c) (flo m c) (Splat.cellOf i) := by
  rw [tail27, final4, final6]
  exact scat_landed m c _ _ (massW_at m c) i

/-- The first result at a cell. -/
theorem res30_apply (c : Dev nD) (i : S8x1x720x1280.Idx) :
    Pipeline.afterTail₀ cfgs (dats m) 0 (V0 m) [hostOps1] c main_v30 i
      = Splat.warped (img m c) (cnt m c) (flo m c) (Splat.cellOf i) := by
  rw [tail30, final4, final5, final6, hostDivf_apply, addf_apply,
    scat_landed m c _ _ (valW_at m c) i, scat_landed m c _ _ (massW_at m c) i]
  rfl

/-- The kernel's run: both results at their functions of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v30) = (fun i => Splat.warped (img m c) (cnt m c) (flo m c) (Splat.cellOf i))
      ∧ r.2.mem ((c.tc : Thread nD τ).loc main_v27) = (fun i => Splat.den (cnt m c) (flo m c) (Splat.cellOf i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v30 (Pipeline.mem_restRefs_of main_v30 (by decide) (by decide))).trans (funext (res30_apply m c)),
      ((h c).2 main_v27 (Pipeline.mem_restRefs_of main_v27 (by decide) (by decide))).trans (funext (res27_apply m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Warp

end
-- ==== Proof.RefValue.lean ====
/-
  The reference's two results as functions of its arguments.

  The reference treats the four neighbours one after the other: for neighbour `l` it computes, over the whole images,
  the target cells, values and masses of all pixels, flattens them, and adds the values, and the masses, into zero
  vectors at the targets — eight scatters in all —, then adds the four landed-value images and the four landed-mass
  images. Each pixel's target, value and mass for neighbour `l` are `Splat.tgtA`, `valA`, `massA` of the arguments (the
  operations are read one at a time down to the arguments); each scatter, viewed as images, holds at a cell what
  lands there from that neighbour (`scatter_landed`); and the zero each scatter starts from adds nothing, so the sums
  of the four are `Splat.num` and `Splat.den`.
-/
import proofs.«126488_j84619445666296_1_alg».proof.Proof.ReadReference
import proofs.«126488_j84619445666296_1_alg».proof.Proof.SplatArrays
import proofs.«126488_j84619445666296_1_alg».proof.Proof.LibFlatScatter
import Idealize.ShloMosaic.PureOps.Ideal.Laws

set_option maxRecDepth 16384

noncomputable section

namespace Cert.ReferenceIdeal.Warp

open Idealize.ShloMosaic Idealize.ShloMosaic.TcCoe Idealize.ShloMosaic.ValueIdx Idealize.SL.Sem
open Cert.ReferenceIdeal Cert.ReferenceIdeal.Gen Cert.ReferenceIdeal.ReadP
open Idealize.ShloMosaic.FlatScatter Idealize.ShloMosaic.VecScatter
open scoped BigOperators

/-- A scatter of one neighbour's updates, viewed as images: the operand is zero, the indices are the pixels' target
    cells flattened and brought into range, the updates the pixels' contributions flattened. Cell `i` holds what
    lands there. -/
theorem scatter_landed (x : FVec Ideal S7372800 .f32) (idx : IVec S7372800 32) (upd : FVec Ideal S7372800 .f32)
    (tg : S8x1x720x1280.Idx → BitVec 32) (v : S8x1x720x1280.Idx → EReal)
    (hx : ∀ p, x p = Splat.lit0)
    (hidx : ∀ j, idx j = Splat.wrap (tg (Shape.reshapeEquiv shapeCasts_S8x1x720x1280_S7372800 j)))
    (hupd : ∀ j, upd j = v (Shape.reshapeEquiv shapeCasts_S8x1x720x1280_S7372800 j))
    (i : S8x1x720x1280.Idx) :
    shapeCast S8x1x720x1280 (Host.scatterAdd (F := Ideal) scatter_S7372800_S7372800x1_S7372800_n_0_0_1 x
        (broadcastInDim S7372800x1 ![0] bcast_S7372800_S7372800x1_0 idx) upd) shapeCasts_S7372800_S8x1x720x1280 i
      = Splat.lit0 + Splat.landed tg v (Splat.cellOf i) := by
  show Host.scatterAdd (F := Ideal) scatter_S7372800_S7372800x1_S7372800_n_0_0_1 x
    (broadcastInDim S7372800x1 ![0] bcast_S7372800_S7372800x1_0 idx) upd
    (Shape.reshapeEquiv shapeCasts_S7372800_S8x1x720x1280 i) = _
  rw [eq_ix1 (Shape.reshapeEquiv shapeCasts_S7372800_S8x1x720x1280 i)]
  refine (host_scatterAdd_column_apply scatter_S7372800_S7372800x1_S7372800_n_0_0_1_wf x idx
    bcast_S7372800_S7372800x1_0 upd _).trans ?_
  rw [hx]
  refine congrArg (Splat.lit0 + ·) ?_
  unfold Splat.landed
  exact (Finset.sum_congr rfl fun j _ => by rw [hidx, hupd, Splat.reshape_cell]).trans
    (sum_reshape shapeCasts_S8x1x720x1280_S7372800
      (fun q => if (Splat.wrap (tg q)).toInt = ((Splat.cellOf i : ℕ) : ℤ) then v q else 0))

/-- The conversion to a word, as the operation it is on the extended reals. -/
theorem fptosi_def' (x : Ideal .f32) : FloatOps.fptosi (F := Ideal) 32 x = Ideal.fptosi 32 x := rfl

/-- The image's number as the reference spells it, `(n · 1 + 0)` for the one channel: it is `n`. -/
theorem word_image (a : BitVec 32) : IntOp.addi (IntOp.muli a 1#32) (BitVec.ofNat 32 0) = a := by
  simp [IntOp.addi, IntOp.muli]

/-- The flow's channel slices read at a pixel: channel 1 and channel 0 at the pixel's image, row and column. -/
theorem idx1_eq (q : S8x1x720x1280.Idx) : idx_main_v1 q = ix4 (q 0) (1 : Fin 2) (q 2) (q 3) := by
  funext a; apply Fin.ext
  have h1 : (q 1).val < 1 := (q 1).isLt
  match a with
  | ⟨0, _⟩ => rfl
  | ⟨1, _⟩ => show 1 + (q 1).val = 1; omega
  | ⟨2, _⟩ => rfl
  | ⟨3, _⟩ => rfl
theorem idx0_eq (q : S8x1x720x1280.Idx) : idx_main_v0 q = ix4 (q 0) (0 : Fin 2) (q 2) (q 3) := by
  funext a; apply Fin.ext
  have h1 : (q 1).val < 1 := (q 1).isLt
  match a with
  | ⟨0, _⟩ => rfl
  | ⟨1, _⟩ => show (q 1).val = 0; omega
  | ⟨2, _⟩ => rfl
  | ⟨3, _⟩ => rfl

/-- Every operation of the reference read at an index from its operands at an index, down to the arguments. -/
macro "read_down" : tactic => `(tactic| simp only [val_main_v0_apply, val_main_v1_apply, val_main_v2_apply, val_main_cst_apply, val_main_v3_apply, val_main_v4_apply, val_main_v5_apply, val_main_cst_0_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_c_apply, val_main_v47_apply, val_main_v48_apply, val_main_c_1_apply, val_main_v49_apply, val_main_v50_apply, val_main_v51_apply, val_main_c_2_apply, val_main_v52_apply, val_main_v53_apply, val_main_v54_apply, val_main_c_3_apply, val_main_v55_apply, val_main_v56_apply, val_main_v57_apply, val_main_v58_apply, val_main_v59_apply, val_main_v60_apply, val_main_v61_apply, val_main_c_4_apply, val_main_v62_apply, val_main_v63_apply, val_main_v64_apply, val_main_v65_apply, val_main_c_5_apply, val_main_v66_apply, val_main_v67_apply, val_main_c_6_apply, val_main_c_7_apply, val_main_call0_v0_apply, val_main_call0_v1_apply, val_main_call0_v2_apply, val_main_call0_v3_apply, val_main_call0_v4_apply, val_main_v68_apply, val_main_v69_apply, val_main_v70_apply, val_main_c_8_apply, val_main_v71_apply, val_main_v72_apply, val_main_c_9_apply, val_main_c_10_apply, val_main_call1_v0_apply, val_main_call1_v1_apply, val_main_call1_v2_apply, val_main_call1_v3_apply, val_main_call1_v4_apply, val_main_v73_apply, val_main_v74_apply, val_main_v75_apply, val_main_v76_apply, val_main_cst_11_apply, val_main_call2_v0_apply, val_main_call2_v1_apply, val_main_v77_apply, val_main_v78_apply, val_main_cst_12_apply, val_main_call3_v0_apply, val_main_call3_v1_apply, val_main_v79_apply, val_main_v80_apply, val_main_v81_apply, val_main_cst_13_apply, val_main_v82_apply, val_main_c_14_apply, val_main_v83_apply, val_main_v84_apply, val_main_c_15_apply, val_main_v85_apply, val_main_v86_apply, val_main_v87_apply, val_main_v88_apply, val_main_cst_16_apply, val_main_v90_apply, val_main_c_17_apply, val_main_v91_apply, val_main_v92_apply, val_main_c_18_apply, val_main_v93_apply, val_main_v94_apply, val_main_v95_apply, val_main_v96_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_v110_apply, val_main_v111_apply, val_main_c_19_apply, val_main_v112_apply, val_main_v113_apply, val_main_c_20_apply, val_main_v114_apply, val_main_v115_apply, val_main_v116_apply, val_main_c_21_apply, val_main_v117_apply, val_main_v118_apply, val_main_v119_apply, val_main_c_22_apply, val_main_v120_apply, val_main_v121_apply, val_main_v122_apply, val_main_v123_apply, val_main_v124_apply, val_main_v125_apply, val_main_v126_apply, val_main_c_23_apply, val_main_v127_apply, val_main_v128_apply, val_main_v129_apply, val_main_v130_apply, val_main_c_24_apply, val_main_v131_apply, val_main_v132_apply, val_main_c_25_apply, val_main_c_26_apply, val_main_call4_v0_apply, val_main_call4_v1_apply, val_main_call4_v2_apply, val_main_call4_v3_apply, val_main_call4_v4_apply, val_main_v133_apply, val_main_v134_apply, val_main_v135_apply, val_main_c_27_apply, val_main_v136_apply, val_main_v137_apply, val_main_c_28_apply, val_main_c_29_apply, val_main_call5_v0_apply, val_main_call5_v1_apply, val_main_call5_v2_apply, val_main_call5_v3_apply, val_main_call5_v4_apply, val_main_v138_apply, val_main_v139_apply, val_main_v140_apply, val_main_v141_apply, val_main_cst_30_apply, val_main_call6_v0_apply, val_main_call6_v1_apply, val_main_v142_apply, val_main_v143_apply, val_main_cst_31_apply, val_main_call7_v0_apply, val_main_call7_v1_apply, val_main_v144_apply, val_main_v145_apply, val_main_v146_apply, val_main_cst_32_apply, val_main_v147_apply, val_main_c_33_apply, val_main_v148_apply, val_main_v149_apply, val_main_c_34_apply, val_main_v150_apply, val_main_v151_apply, val_main_v152_apply, val_main_v153_apply, val_main_cst_35_apply, val_main_v155_apply, val_main_c_36_apply, val_main_v156_apply, val_main_v157_apply, val_main_c_37_apply, val_main_v158_apply, val_main_v159_apply, val_main_v160_apply, val_main_v161_apply, val_main_v163_apply, val_main_v164_apply, val_main_v165_apply, val_main_v166_apply, val_main_v167_apply, val_main_v168_apply, val_main_v169_apply, val_main_v170_apply, val_main_v171_apply, val_main_v172_apply, val_main_v173_apply, val_main_v174_apply, val_main_v175_apply, val_main_v176_apply, val_main_c_38_apply, val_main_v177_apply, val_main_v178_apply, val_main_c_39_apply, val_main_v179_apply, val_main_v180_apply, val_main_v181_apply, val_main_c_40_apply, val_main_v182_apply, val_main_v183_apply, val_main_v184_apply, val_main_c_41_apply, val_main_v185_apply, val_main_v186_apply, val_main_v187_apply, val_main_v188_apply, val_main_v189_apply, val_main_v190_apply, val_main_v191_apply, val_main_c_42_apply, val_main_v192_apply, val_main_v193_apply, val_main_v194_apply, val_main_v195_apply, val_main_c_43_apply, val_main_v196_apply, val_main_v197_apply, val_main_c_44_apply, val_main_c_45_apply, val_main_call8_v0_apply, val_main_call8_v1_apply, val_main_call8_v2_apply, val_main_call8_v3_apply, val_main_call8_v4_apply, val_main_v198_apply, val_main_v199_apply, val_main_v200_apply, val_main_c_46_apply, val_main_v201_apply, val_main_v202_apply, val_main_c_47_apply, val_main_c_48_apply, val_main_call9_v0_apply, val_main_call9_v1_apply, val_main_call9_v2_apply, val_main_call9_v3_apply, val_main_call9_v4_apply, val_main_v203_apply, val_main_v204_apply, val_main_v205_apply, val_main_v206_apply, val_main_cst_49_apply, val_main_call10_v0_apply, val_main_call10_v1_apply, val_main_v207_apply, val_main_v208_apply, val_main_cst_50_apply, val_main_call11_v0_apply, val_main_call11_v1_apply, val_main_v209_apply, val_main_v210_apply, val_main_v211_apply, val_main_cst_51_apply, val_main_v212_apply, val_main_c_52_apply, val_main_v213_apply, val_main_v214_apply, val_main_c_53_apply, val_main_v215_apply, val_main_v216_apply, val_main_v217_apply, val_main_v218_apply, val_main_cst_54_apply, val_main_v220_apply, val_main_c_55_apply, val_main_v221_apply, val_main_v222_apply, val_main_c_56_apply, val_main_v223_apply, val_main_v224_apply, val_main_v225_apply, val_main_v226_apply, val_main_v228_apply, val_main_v229_apply, val_main_v230_apply, val_main_v231_apply, val_main_v232_apply, val_main_v233_apply, val_main_v234_apply, val_main_v235_apply, val_main_v236_apply, val_main_v237_apply, val_main_v238_apply, val_main_v239_apply, val_main_v240_apply, val_main_v241_apply, val_main_c_57_apply, val_main_v242_apply, val_main_v243_apply, val_main_c_58_apply, val_main_v244_apply, val_main_v245_apply, val_main_v246_apply, val_main_c_59_apply, val_main_v247_apply, val_main_v248_apply, val_main_v249_apply, val_main_c_60_apply, val_main_v250_apply, val_main_v251_apply, val_main_v252_apply, val_main_v253_apply, val_main_v254_apply, val_main_v255_apply, val_main_v256_apply, val_main_c_61_apply, val_main_v257_apply, val_main_v258_apply, val_main_v259_apply, val_main_v260_apply, val_main_c_62_apply, val_main_v261_apply, val_main_v262_apply, val_main_c_63_apply, val_main_c_64_apply, val_main_call12_v0_apply, val_main_call12_v1_apply, val_main_call12_v2_apply, val_main_call12_v3_apply, val_main_call12_v4_apply, val_main_v263_apply, val_main_v264_apply, val_main_v265_apply, val_main_c_65_apply, val_main_v266_apply, val_main_v267_apply, val_main_c_66_apply, val_main_c_67_apply, val_main_call13_v0_apply, val_main_call13_v1_apply, val_main_call13_v2_apply, val_main_call13_v3_apply, val_main_call13_v4_apply, val_main_v268_apply, val_main_v269_apply, val_main_v270_apply, val_main_v271_apply, val_main_cst_68_apply, val_main_call14_v0_apply, val_main_call14_v1_apply, val_main_v272_apply, val_main_v273_apply, val_main_cst_69_apply, val_main_call15_v0_apply, val_main_call15_v1_apply, val_main_v274_apply, val_main_v275_apply, val_main_v276_apply, val_main_cst_70_apply, val_main_v277_apply, val_main_c_71_apply, val_main_v278_apply, val_main_v279_apply, val_main_c_72_apply, val_main_v280_apply, val_main_v281_apply, val_main_v282_apply, val_main_v283_apply, val_main_cst_73_apply, val_main_v285_apply, val_main_c_74_apply, val_main_v286_apply, val_main_v287_apply, val_main_c_75_apply, val_main_v288_apply, val_main_v289_apply, val_main_v290_apply, val_main_v291_apply, val_main_v293_apply, val_main_v294_apply, val_main_v295_apply, val_main_v296_apply, val_main_v297_apply, val_main_v298_apply, val_main_v299_apply, val_main_v300_apply, val_main_cst_76_apply, val_main_v301_apply, val_main_v302_apply, val_main_v303_apply])

theorem tgt_c0 (x2 : Splat.SFlo.Idx → EReal) (q : S8x1x720x1280.Idx) :
    val_main_v74 (F := Ideal) x2 q = Splat.tgtA x2 0 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem val_c0 (x0 x1 : Splat.SImg.Idx → EReal) (x2 : Splat.SFlo.Idx → EReal) (q : S8x1x720x1280.Idx) :
    val_main_v77 (F := Ideal) x0 x1 x2 q = Splat.valA x0 x1 x2 0 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem mass_c0 (x1 : Splat.SImg.Idx → EReal) (x2 : Splat.SFlo.Idx → EReal) (q : S8x1x720x1280.Idx) :
    val_main_v79 (F := Ideal) x1 x2 q = Splat.massA x1 x2 0 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl

theorem tgt_c1 (x2 : Splat.SFlo.Idx → EReal) (q : S8x1x720x1280.Idx) :
    val_main_v139 (F := Ideal) x2 q = Splat.tgtA x2 1 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem val_c1 (x0 x1 : Splat.SImg.Idx → EReal) (x2 : Splat.SFlo.Idx → EReal) (q : S8x1x720x1280.Idx) :
    val_main_v142 (F := Ideal) x0 x1 x2 q = Splat.valA x0 x1 x2 1 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem mass_c1 (x1 : Splat.SImg.Idx → EReal) (x2 : Splat.SFlo.Idx → EReal) (q : S8x1x720x1280.Idx) :
    val_main_v144 (F := Ideal) x1 x2 q = Splat.massA x1 x2 1 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl

theorem tgt_c2 (x2 : Splat.SFlo.Idx → EReal) (q : S8x1x720x1280.Idx) :
    val_main_v204 (F := Ideal) x2 q = Splat.tgtA x2 2 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem val_c2 (x0 x1 : Splat.SImg.Idx → EReal) (x2 : Splat.SFlo.Idx → EReal) (q : S8x1x720x1280.Idx) :
    val_main_v207 (F := Ideal) x0 x1 x2 q = Splat.valA x0 x1 x2 2 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem mass_c2 (x1 : Splat.SImg.Idx → EReal) (x2 : Splat.SFlo.Idx → EReal) (q : S8x1x720x1280.Idx) :
    val_main_v209 (F := Ideal) x1 x2 q = Splat.massA x1 x2 2 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl

theorem tgt_c3 (x2 : Splat.SFlo.Idx → EReal) (q : S8x1x720x1280.Idx) :
    val_main_v269 (F := Ideal) x2 q = Splat.tgtA x2 3 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem val_c3 (x0 x1 : Splat.SImg.Idx → EReal) (x2 : Splat.SFlo.Idx → EReal) (q : S8x1x720x1280.Idx) :
    val_main_v272 (F := Ideal) x0 x1 x2 q = Splat.valA x0 x1 x2 3 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl
theorem mass_c3 (x1 : Splat.SImg.Idx → EReal) (x2 : Splat.SFlo.Idx → EReal) (q : S8x1x720x1280.Idx) :
    val_main_v274 (F := Ideal) x1 x2 q = Splat.massA x1 x2 3 q := by
  read_down
  simp only [Ideal.hostUnary_floor_def, Ideal.hostUnary_exp_def, Ideal.hostNegf_def, Ideal.negf_def, Ideal.hostDivf_def,
    Ideal.addf_def, Ideal.subf_def, Ideal.mulf_def, Ideal.ofBits_def, fptosi_def', word_image, idx1_eq, idx0_eq]
  rfl

/-- The scatter's indices: neighbour 0's target cells, flattened and brought into range. -/
theorem wrapVal0 (x2 : Splat.SFlo.Idx → EReal) (j : S7372800.Idx) :
    val_main_v87 (F := Ideal) x2 j
      = Splat.wrap (Splat.tgtA x2 0 (Shape.reshapeEquiv shapeCasts_S8x1x720x1280_S7372800 j)) := by
  rw [← tgt_c0, val_main_v87_apply, val_main_v84_apply, val_main_v86_apply, val_main_v83_apply, val_main_v85_apply,
    val_main_c_14_apply, val_main_c_15_apply]
  rfl
theorem landedVal0 (x0 x1 : Splat.SImg.Idx → EReal) (x2 : Splat.SFlo.Idx → EReal) (i : S8x1x720x1280.Idx) :
    val_main_v98 (F := Ideal) x0 x1 x2 i
      = Splat.lit0 + Splat.landed (Splat.tgtA x2 0) (Splat.valA x0 x1 x2 0) (Splat.cellOf i) := by
  unfold val_main_v98 val_main_v89 val_main_v88
  exact scatter_landed (val_main_v82 (F := Ideal)) (val_main_v87 (F := Ideal) x2) (val_main_v78 (F := Ideal) x0 x1 x2)
    (Splat.tgtA x2 0) (Splat.valA x0 x1 x2 0) (fun _ => rfl) (wrapVal0 x2)
    (fun j => by unfold val_main_v78; rw [← val_c0]; rfl) i

/-- The scatter's indices: neighbour 0's target cells, flattened and brought into range. -/
theorem wrapMass0 (x2 : Splat.SFlo.Idx → EReal) (j : S7372800.Idx) :
    val_main_v95 (F := Ideal) x2 j
      = Splat.wrap (Splat.tgtA x2 0 (Shape.reshapeEquiv shapeCasts_S8x1x720x1280_S7372800 j)) := by
  rw [← tgt_c0, val_main_v95_apply, val_main_v92_apply, val_main_v94_apply, val_main_v91_apply, val_main_v93_apply,
    val_main_c_17_apply, val_main_c_18_apply]
  rfl
theorem landedMass0 (x1 : Splat.SImg.Idx → EReal) (x2 : Splat.SFlo.Idx → EReal) (i : S8x1x720x1280.Idx) :
    val_main_v99 (F := Ideal) x1 x2 i
      = Splat.lit0 + Splat.landed (Splat.tgtA x2 0) (Splat.massA x1 x2 0) (Splat.cellOf i) := by
  unfold val_main_v99 val_main_v97 val_main_v96
  exact scatter_landed (val_main_v90 (F := Ideal)) (val_main_v95 (F := Ideal) x2) (val_main_v80 (F := Ideal) x1 x2)
    (Splat.tgtA x2 0) (Splat.massA x1 x2 0) (fun _ => rfl) (wrapMass0 x2)
    (fun j => by unfold val_main_v80; rw [← mass_c0]; rfl) i

/-- The scatter's indices: neighbour 1's target cells, flattened and brought into range. -/
theorem wrapVal1 (x2 : Splat.SFlo.Idx → EReal) (j : S7372800.Idx) :
    val_main_v152 (F := Ideal) x2 j
      = Splat.wrap (Splat.tgtA x2 1 (Shape.reshapeEquiv shapeCasts_S8x1x720x1280_S7372800 j)) := by
  rw [← tgt_c1, val_main_v152_apply, val_main_v149_apply, val_main_v151_apply, val_main_v148_apply, val_main_v150_apply,
    val_main_c_33_apply, val_main_c_34_apply]
  rfl
theorem landedVal1 (x0 x1 : Splat.SImg.Idx → EReal) (x2 : Splat.SFlo.Idx → EReal) (i : S8x1x720x1280.Idx) :
    val_main_v163 (F := Ideal) x0 x1 x2 i
      = Splat.lit0 + Splat.landed (Splat.tgtA x2 1) (Splat.valA x0 x1 x2 1) (Splat.cellOf i) := by
  unfold val_main_v163 val_main_v154 val_main_v153
  exact scatter_landed (val_main_v147 (F := Ideal)) (val_main_v152 (F := Ideal) x2) (val_main_v143 (F := Ideal) x0 x1 x2)
    (Splat.tgtA x2 1) (Splat.valA x0 x1 x2 1) (fun _ => rfl) (wrapVal1 x2)
    (fun j => by unfold val_main_v143; rw [← val_c1]; rfl) i

/-- The scatter's indices: neighbour 1's target cells, flattened and brought into range. -/
theorem wrapMass1 (x2 : Splat.SFlo.Idx → EReal) (j : S7372800.Idx) :
    val_main_v160 (F := Ideal) x2 j
      = Splat.wrap (Splat.tgtA x2 1 (Shape.reshapeEquiv shapeCasts_S8x1x720x1280_S7372800 j)) := by
  rw [← tgt_c1, val_main_v160_apply, val_main_v157_apply, val_main_v159_apply, val_main_v156_apply, val_main_v158_apply,
    val_main_c_36_apply, val_main_c_37_apply]
  rfl
theorem landedMass1 (x1 : Splat.SImg.Idx → EReal) (x2 : Splat.SFlo.Idx → EReal) (i : S8x1x720x1280.Idx) :
    val_main_v164 (F := Ideal) x1 x2 i
      = Splat.lit0 + Splat.landed (Splat.tgtA x2 1) (Splat.massA x1 x2 1) (Splat.cellOf i) := by
  unfold val_main_v164 val_main_v162 val_main_v161
  exact scatter_landed (val_main_v155 (F := Ideal)) (val_main_v160 (F := Ideal) x2) (val_main_v145 (F := Ideal) x1 x2)
    (Splat.tgtA x2 1) (Splat.massA x1 x2 1) (fun _ => rfl) (wrapMass1 x2)
    (fun j => by unfold val_main_v145; rw [← mass_c1]; rfl) i

/-- The scatter's indices: neighbour 2's target cells, flattened and brought into range. -/
theorem wrapVal2 (x2 : Splat.SFlo.Idx → EReal) (j : S7372800.Idx) :
    val_main_v217 (F := Ideal) x2 j
      = Splat.wrap (Splat.tgtA x2 2 (Shape.reshapeEquiv shapeCasts_S8x1x720x1280_S7372800 j)) := by
  rw [← tgt_c2, val_main_v217_apply, val_main_v214_apply, val_main_v216_apply, val_main_v213_apply, val_main_v215_apply,
    val_main_c_52_apply, val_main_c_53_apply]
  rfl
theorem landedVal2 (x0 x1 : Splat.SImg.Idx → EReal) (x2 : Splat.SFlo.Idx → EReal) (i : S8x1x720x1280.Idx) :
    val_main_v228 (F := Ideal) x0 x1 x2 i
      = Splat.lit0 + Splat.landed (Splat.tgtA x2 2) (Splat.valA x0 x1 x2 2) (Splat.cellOf i) := by
  unfold val_main_v228 val_main_v219 val_main_v218
  exact scatter_landed (val_main_v212 (F := Ideal)) (val_main_v217 (F := Ideal) x2) (val_main_v208 (F := Ideal) x0 x1 x2)
    (Splat.tgtA x2 2) (Splat.valA x0 x1 x2 2) (fun _ => rfl) (wrapVal2 x2)
    (fun j => by unfold val_main_v208; rw [← val_c2]; rfl) i

/-- The scatter's indices: neighbour 2's target cells, flattened and brought into range. -/
theorem wrapMass2 (x2 : Splat.SFlo.Idx → EReal) (j : S7372800.Idx) :
    val_main_v225 (F := Ideal) x2 j
      = Splat.wrap (Splat.tgtA x2 2 (Shape.reshapeEquiv shapeCasts_S8x1x720x1280_S7372800 j)) := by
  rw [← tgt_c2, val_main_v225_apply, val_main_v222_apply, val_main_v224_apply, val_main_v221_apply, val_main_v223_apply,
    val_main_c_55_apply, val_main_c_56_apply]
  rfl
theorem landedMass2 (x1 : Splat.SImg.Idx → EReal) (x2 : Splat.SFlo.Idx → EReal) (i : S8x1x720x1280.Idx) :
    val_main_v229 (F := Ideal) x1 x2 i
      = Splat.lit0 + Splat.landed (Splat.tgtA x2 2) (Splat.massA x1 x2 2) (Splat.cellOf i) := by
  unfold val_main_v229 val_main_v227 val_main_v226
  exact scatter_landed (val_main_v220 (F := Ideal)) (val_main_v225 (F := Ideal) x2) (val_main_v210 (F := Ideal) x1 x2)
    (Splat.tgtA x2 2) (Splat.massA x1 x2 2) (fun _ => rfl) (wrapMass2 x2)
    (fun j => by unfold val_main_v210; rw [← mass_c2]; rfl) i

/-- The scatter's indices: neighbour 3's target cells, flattened and brought into range. -/
theorem wrapVal3 (x2 : Splat.SFlo.Idx → EReal) (j : S7372800.Idx) :
    val_main_v282 (F := Ideal) x2 j
      = Splat.wrap (Splat.tgtA x2 3 (Shape.reshapeEquiv shapeCasts_S8x1x720x1280_S7372800 j)) := by
  rw [← tgt_c3, val_main_v282_apply, val_main_v279_apply, val_main_v281_apply, val_main_v278_apply, val_main_v280_apply,
    val_main_c_71_apply, val_main_c_72_apply]
  rfl
theorem landedVal3 (x0 x1 : Splat.SImg.Idx → EReal) (x2 : Splat.SFlo.Idx → EReal) (i : S8x1x720x1280.Idx) :
    val_main_v293 (F := Ideal) x0 x1 x2 i
      = Splat.lit0 + Splat.landed (Splat.tgtA x2 3) (Splat.valA x0 x1 x2 3) (Splat.cellOf i) := by
  unfold val_main_v293 val_main_v284 val_main_v283
  exact scatter_landed (val_main_v277 (F := Ideal)) (val_main_v282 (F := Ideal) x2) (val_main_v273 (F := Ideal) x0 x1 x2)
    (Splat.tgtA x2 3) (Splat.valA x0 x1 x2 3) (fun _ => rfl) (wrapVal3 x2)
    (fun j => by unfold val_main_v273; rw [← val_c3]; rfl) i

/-- The scatter's indices: neighbour 3's target cells, flattened and brought into range. -/
theorem wrapMass3 (x2 : Splat.SFlo.Idx → EReal) (j : S7372800.Idx) :
    val_main_v290 (F := Ideal) x2 j
      = Splat.wrap (Splat.tgtA x2 3 (Shape.reshapeEquiv shapeCasts_S8x1x720x1280_S7372800 j)) := by
  rw [← tgt_c3, val_main_v290_apply, val_main_v287_apply, val_main_v289_apply, val_main_v286_apply, val_main_v288_apply,
    val_main_c_74_apply, val_main_c_75_apply]
  rfl
theorem landedMass3 (x1 : Splat.SImg.Idx → EReal) (x2 : Splat.SFlo.Idx → EReal) (i : S8x1x720x1280.Idx) :
    val_main_v294 (F := Ideal) x1 x2 i
      = Splat.lit0 + Splat.landed (Splat.tgtA x2 3) (Splat.massA x1 x2 3) (Splat.cellOf i) := by
  unfold val_main_v294 val_main_v292 val_main_v291
  exact scatter_landed (val_main_v285 (F := Ideal)) (val_main_v290 (F := Ideal) x2) (val_main_v275 (F := Ideal) x1 x2)
    (Splat.tgtA x2 3) (Splat.massA x1 x2 3) (fun _ => rfl) (wrapMass3 x2)
    (fun j => by unfold val_main_v275; rw [← mass_c3]; rfl) i

/-- The second result at a cell: the mass landed there from the four neighbours. -/
theorem res300_apply (x1 : Splat.SImg.Idx → EReal) (x2 : Splat.SFlo.Idx → EReal) (i : S8x1x720x1280.Idx) :
    val_main_v300 (F := Ideal) x1 x2 i = Splat.den x1 x2 (Splat.cellOf i) := by
  rw [val_main_v300_apply, val_main_v299_apply, val_main_v298_apply, landedMass0, landedMass1, landedMass2, landedMass3]
  simp only [Ideal.addf_def]
  unfold Splat.den
  rw [Fin.sum_univ_four]
  simp only [Splat.lit0, Ideal.ofBits_zero_f32, zero_add]

/-- The numerator at a cell. -/
theorem res297_apply (x0 x1 : Splat.SImg.Idx → EReal) (x2 : Splat.SFlo.Idx → EReal) (i : S8x1x720x1280.Idx) :
    val_main_v297 (F := Ideal) x0 x1 x2 i = Splat.num x0 x1 x2 (Splat.cellOf i) := by
  rw [val_main_v297_apply, val_main_v296_apply, val_main_v295_apply, landedVal0, landedVal1, landedVal2, landedVal3]
  simp only [Ideal.addf_def]
  unfold Splat.num
  rw [Fin.sum_univ_four]
  simp only [Splat.lit0, Ideal.ofBits_zero_f32, zero_add]

/-- The first result at a cell: the warped intensity. -/
theorem res303_apply (x0 x1 : Splat.SImg.Idx → EReal) (x2 : Splat.SFlo.Idx → EReal) (i : S8x1x720x1280.Idx) :
    val_main_v303 (F := Ideal) x0 x1 x2 i = Splat.warped x0 x1 x2 (Splat.cellOf i) := by
  rw [val_main_v303_apply, val_main_v302_apply, val_main_v301_apply, val_main_cst_76_apply, res297_apply, res300_apply]
  rfl

end Cert.ReferenceIdeal.Warp

end
-- ==== Proof.lean ====
/-
  Forward warping by Gaussian splatting: a kernel whose program makes one scatter per quantity against a reference that makes four.

  Each pixel of eight `720 × 1280` images sends its intensity times its count, and its count, to the four integer
  neighbours of its flow-shifted position, weighted by normalised Gaussian weights; what lands in each cell is summed,
  and the warped image is the landed value over the landed mass plus a guard. The kernel computes, block of rows by
  block of rows, the target cell, value and mass of every pixel for ALL FOUR neighbours into three stacked arrays, and
  its @main adds them into the cells with one scatter per quantity. The reference handles the neighbours one after the
  other — eight scatters — and adds the four results.

  On the extended reals both are the same function of the arguments: the per-pixel arithmetic is literally the same
  (`Splat.target`, `Splat.value`, `Splat.mass`; the kernel's `0 - t` is the reference's `-t`), and a sum over all
  pixels and neighbours of the updates aimed at a cell is the sum over the neighbours of the sums over the pixels
  (addition of extended reals is commutative and associative; the zero the accumulators start from adds nothing). No
  finiteness of the inputs is used. The kernel's frames are the generated frame certificates; the reference's frame is
  its generated run with the results dropped; the idealization rewrote nothing, so `preserves` is trivial.
-/
import proofs.«126488_j84619445666296_1_alg».proof.Defs
import proofs.«126488_j84619445666296_1_alg».proof.Proof.Gen.Kernel
import proofs.«126488_j84619445666296_1_alg».proof.Proof.Gen.Kernel.Skeleton
import proofs.«126488_j84619445666296_1_alg».proof.Proof.Gen.Kernel.Launch
import proofs.«126488_j84619445666296_1_alg».proof.Proof.Gen.Kernel.Points
import proofs.«126488_j84619445666296_1_alg».proof.Proof.FrameKernel
import proofs.«126488_j84619445666296_1_alg».proof.Proof.Gen.KernelIdeal
import proofs.«126488_j84619445666296_1_alg».proof.Proof.Gen.KernelIdeal.Skeleton
import proofs.«126488_j84619445666296_1_alg».proof.Proof.Gen.KernelIdeal.Launch
import proofs.«126488_j84619445666296_1_alg».proof.Proof.Gen.KernelIdeal.Points
import proofs.«126488_j84619445666296_1_alg».proof.Proof.FrameKernelIdeal
import proofs.«126488_j84619445666296_1_alg».proof.Proof.Gen.ReferenceIdeal
import proofs.«126488_j84619445666296_1_alg».proof.Proof.RunReference
import proofs.«126488_j84619445666296_1_alg».proof.Proof.ReadReference
import proofs.«126488_j84619445666296_1_alg».proof.Proof.Gen.Pre_finite_inputs
import proofs.«126488_j84619445666296_1_alg».proof.Proof.KerValue
import proofs.«126488_j84619445666296_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ
theorem frame_kernelIdeal : Cert.frame_KernelIdeal := fun m ρ _ => Cert.KernelIdeal.GenP.frame m ρ
/-- The reference's run with its results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- Both programs end with the warped image and the landed mass of the arguments, cell by cell. -/
theorem algebraic : Cert.algebraic_KernelIdeal_ReferenceIdeal := by
  intro m ρ m' ρ' _ hagree
  refine ⟨fun c i => Splat.warped (Cert.KernelIdeal.Warp.img m c) (Cert.KernelIdeal.Warp.cnt m c)
      (Cert.KernelIdeal.Warp.flo m c) (Splat.cellOf i),
    fun c i => Splat.den (Cert.KernelIdeal.Warp.cnt m c) (Cert.KernelIdeal.Warp.flo m c) (Splat.cellOf i),
    Cert.KernelIdeal.Warp.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v303_eq, (hagree c).1, (hagree c).2.1, (hagree c).2.2]
    exact funext fun i => Cert.ReferenceIdeal.Warp.res303_apply _ _ _ i
  · rw [Cert.ReferenceIdeal.ReadP.val_main_v300_eq, (hagree c).2.1, (hagree c).2.2]
    exact funext fun i => Cert.ReferenceIdeal.Warp.res300_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
